-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x500 .f32) (main_arg1 : IVec S2x1600000 32) (main_arg2 : FVec F S500x64 .f32) (main_arg3 : FVec F S64 .f32) (main_arg4 : FVec F S64x40 .f32) (main_arg5 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x64 .f32 := Host.absf main_arg2
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x500 : Shape := ⟨2, ![2000, 500]⟩
abbrev S2000x64 : Shape := ⟨2, ![2000, 64]⟩
abbrev S1700000x64 : Shape := ⟨2, ![1700000, 64]⟩
abbrev S1x64 : Shape := ⟨2, ![1, 64]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 87
  | .vmem => 14
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x40, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S1700000x40, .f32⟩
  | .hbm, ⟨78, _⟩ => ⟨S1700000x40, .f32⟩
  | .hbm, ⟨79, _⟩ => ⟨S_, .f32⟩
  | .hbm, ⟨80, _⟩ => ⟨S100000x40, .f32⟩
  | .hbm, ⟨81, _⟩ => ⟨S1700000x1, .i32⟩
  | .hbm, ⟨82, _⟩ => ⟨S100000x40, .f32⟩
  | .hbm, ⟨83, _⟩ => ⟨S1x40, .f32⟩
  | .hbm, ⟨84, _⟩ => ⟨S100000x40, .f32⟩
  | .hbm, ⟨85, _⟩ => ⟨S100000x40, .f32⟩
  | .hbm, ⟨86, _⟩ => ⟨S100000x40, .f32⟩
  | .local _ .vmem, ⟨0, _⟩ => ⟨S2000x500, .f32⟩
  | .local _ .vmem, ⟨1, _⟩ => ⟨S2000x500, .f32⟩
  | .local _ .vmem, ⟨2, _⟩ => ⟨S500x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x40, .f32⟩
  | .local _ .vmem, ⟨8, _⟩ => ⟨S2000x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S2000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x500_S500x64_S2000x64_1_0_0_1_n_n_wf : DotDims.WF S2000x500 S500x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x40_S2000x40_1_0_0_1_n_n_wf : DotDims.WF S2000x64 S64x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S100000x40.size a
  hwx1_2 : ∀ i : grid1.Coords, EltTy.bits .f32 = 32 ∨ (Rect.block (s := S100000x40) S2000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x40.size a ≤ S100000x40.size a
  hwx2_1 : ∀ i : grid2.Coords, EltTy.bits .f32 = 32 ∨ (Rect.block (s := S100000x40) S2000x40.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x500_S500x64_S2000x64_1_0_0_1_n_n : DotDims S2000x500 S500x64 S2000x64 where
  lhsContracting := [1]
  rhsContracting := [0]
  lhsNonContracting := [0]
  rhsNonContracting := [1]
  lhsBatch := []
  rhsBatch := []
  wf := dot_S2000x500_S500x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S2000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x40, .f32⟩
  | .hbm, ⟨80, _⟩ => ⟨S1700000x40, .f32⟩
  | .hbm, ⟨81, _⟩ => ⟨S1700000x40, .f32⟩
  | .hbm, ⟨82, _⟩ => ⟨S_, .f32⟩
  | .hbm, ⟨83, _⟩ => ⟨S100000x40, .f32⟩
  | .hbm, ⟨84, _⟩ => ⟨S1700000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩
abbrev main_call3_cst : Ref sig .tc := ⟨.hbm, 92, rfl⟩
abbrev main_call3_v0 : Ref sig .tc := ⟨.hbm, 93, rfl⟩
abbrev main_call3_cst_0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_cst_1 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_v66 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x64_S100000x64_1_0_0_1_n_n_wf : DotDims.WF S100000x500 S500x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The two matrix products of the network, entry by entry, over the literal shapes.

  Entry (r, c) of a product x · w is the sum over the shared axis k of x (r, k) · w (k, c). On the extended reals the
  sum is a sum in a commutative monoid, so it does not depend on an order of summation or on a tiling of the rows.
-/
import proofs.«116660_j15212774162888_1_alg».proof.KernelIdeal
import Idealize.ShloMosaic.Lib.ValueIdx
import Idealize.ShloMosaic.PureOps.Ideal.Laws

noncomputable section

namespace Cert.Spec

open Idealize.ShloMosaic Cert.KernelIdeal

/-- For entry `i` = (r, c) of the first product and `k` on the shared axis of length 500: the left factor's index (r, k). -/
abbrev leftAt1 (i : S100000x64.Idx) (k : Fin 500) : S100000x500.Idx := fun a => match a with
  | ⟨0, _⟩ => ⟨(i 0).val, (i 0).isLt⟩
  | ⟨1, _⟩ => ⟨k.val, k.isLt⟩
/-- … and the right factor's index (k, c). -/
abbrev rightAt1 (i : S100000x64.Idx) (k : Fin 500) : S500x64.Idx := fun a => match a with
  | ⟨0, _⟩ => ⟨k.val, k.isLt⟩
  | ⟨1, _⟩ => ⟨(i 1).val, (i 1).isLt⟩

/-- The product of a 100000 × 500 matrix with a 500 × 64 matrix. -/
def prod1 (x : (⟨S100000x500, .f32⟩ : BufTy).Contents (Elt Ideal)) (w : (⟨S500x64, .f32⟩ : BufTy).Contents (Elt Ideal)) :
    (⟨S100000x64, .f32⟩ : BufTy).Contents (Elt Ideal) :=
  fun i => ∑ k : Fin 500, x (leftAt1 i k) * w (rightAt1 i k)

/-- For entry `i` = (r, c) of the second product and `k` on the shared axis of length 64: the left factor's index (r, k). -/
abbrev leftAt2 (i : S100000x40.Idx) (k : Fin 64) : S100000x64.Idx := fun a => match a with
  | ⟨0, _⟩ => ⟨(i 0).val, (i 0).isLt⟩
  | ⟨1, _⟩ => ⟨k.val, k.isLt⟩
/-- … and the right factor's index (k, c). -/
abbrev rightAt2 (i : S100000x40.Idx) (k : Fin 64) : S64x40.Idx := fun a => match a with
  | ⟨0, _⟩ => ⟨k.val, k.isLt⟩
  | ⟨1, _⟩ => ⟨(i 1).val, (i 1).isLt⟩

/-- The product of a 100000 × 64 matrix with a 64 × 40 matrix. -/
def prod2 (x : (⟨S100000x64, .f32⟩ : BufTy).Contents (Elt Ideal)) (w : (⟨S64x40, .f32⟩ : BufTy).Contents (Elt Ideal)) :
    (⟨S100000x40, .f32⟩ : BufTy).Contents (Elt Ideal) :=
  fun i => ∑ k : Fin 64, x (leftAt2 i k) * w (rightAt2 i k)

/-- The rectifier, entry by entry: the larger of the entry and zero (zero as the float word the programs write). -/
def relu {S : Shape} (a : (⟨S, .f32⟩ : BufTy).Contents (Elt Ideal)) : (⟨S, .f32⟩ : BufTy).Contents (Elt Ideal) :=
  fun i => FloatOps.maximumf (F := Ideal) (a i) (FloatOps.ofBits .f32 0x00000000#32)

/-! ## The logarithm of the softmax, row by row

For an array with 40 columns: subtract from each entry its row's largest entry, and then the logarithm of the sum, over
the row, of the exponentials of the shifted entries. The largest entry is the fold of `max` over the row from −∞ (the
float word the programs write), the sum is a sum over the 40 columns; each involves one row only. -/

/-- The largest entry of row `r`. -/
def rowMax {n : Nat} (y : (⟨2, ![n, 40]⟩ : Shape).Idx → Ideal .f32) (r : Fin n) : Ideal .f32 :=
  (Finset.univ : Finset (Fin 40)).fold (FloatOps.maximumf (F := Ideal)) (FloatOps.ofBits .f32 0xFF800000#32) (fun c => y (ValueIdx.ix2 r c))

/-- Each entry less its row's largest entry. -/
def rowShift {n : Nat} (y : (⟨2, ![n, 40]⟩ : Shape).Idx → Ideal .f32) : (⟨2, ![n, 40]⟩ : Shape).Idx → Ideal .f32 :=
  fun i => FloatOps.subf (F := Ideal) (y i) (rowMax y (i 0))

/-- The sum over row `r` of the exponentials of the shifted entries. -/
def rowSum {n : Nat} (y : (⟨2, ![n, 40]⟩ : Shape).Idx → Ideal .f32) (r : Fin n) : Ideal .f32 :=
  ∑ c : Fin 40, FloatOps.exp (F := Ideal) (rowShift y (ValueIdx.ix2 r c))

/-- The logarithm of the softmax of each row. -/
def rowLogSoftmax {n : Nat} (y : (⟨2, ![n, 40]⟩ : Shape).Idx → Ideal .f32) : (⟨2, ![n, 40]⟩ : Shape).Idx → Ideal .f32 :=
  fun i => FloatOps.subf (F := Ideal) (rowShift y i) (FloatOps.log (F := Ideal) (rowSum y (i 0)))

/-- It depends on the row only: if row `r'` of `y'` is row `r` of `y`, the two results agree along those rows. -/
theorem rowLogSoftmax_row {n m : Nat} (y : (⟨2, ![n, 40]⟩ : Shape).Idx → Ideal .f32) (y' : (⟨2, ![m, 40]⟩ : Shape).Idx → Ideal .f32)
    (r : Fin n) (r' : Fin m) (h : ∀ c : Fin 40, y' (ValueIdx.ix2 r' c) = y (ValueIdx.ix2 r c)) (c : Fin 40) :
    rowLogSoftmax y' (ValueIdx.ix2 r' c) = rowLogSoftmax y (ValueIdx.ix2 r c) := by
  have hM : rowMax y' r' = rowMax y r := by
    unfold rowMax
    exact congrArg (fun f : Fin 40 → Ideal .f32 => (Finset.univ : Finset (Fin 40)).fold (FloatOps.maximumf (F := Ideal)) (FloatOps.ofBits .f32 0xFF800000#32) f) (funext h)
  have hS : ∀ c : Fin 40, rowShift y' (ValueIdx.ix2 r' c) = rowShift y (ValueIdx.ix2 r c) := fun c => by
    show FloatOps.subf (F := Ideal) (y' (ValueIdx.ix2 r' c)) (rowMax y' r') = FloatOps.subf (F := Ideal) (y (ValueIdx.ix2 r c)) (rowMax y r)
    rw [h c, hM]
  have hSum : rowSum y' r' = rowSum y r := by unfold rowSum; exact Finset.sum_congr rfl fun c _ => by rw [hS c]
  show FloatOps.subf (F := Ideal) (rowShift y' (ValueIdx.ix2 r' c)) (FloatOps.log (F := Ideal) (rowSum y' r'))
     = FloatOps.subf (F := Ideal) (rowShift y (ValueIdx.ix2 r c)) (FloatOps.log (F := Ideal) (rowSum y r))
  rw [hS c, hSum]

/-! ## The whole network

Two graph-convolution layers and the logarithm of the softmax. With the index vectors `Src`, `Dst`, the edge weights `Nrm`
and the two aggregations `A1`, `A2` given as functions (of the edge array; of the weights, the indices, a node array and
a bias): multiply the features by the first weights, aggregate, rectify, multiply by the second weights, aggregate,
rectify, and take the logarithm of the softmax of each row. -/

def network (Src Dst : (⟨S2x1600000, .i32⟩ : BufTy).Contents (Elt Ideal) → (⟨S1700000, .i32⟩ : BufTy).Contents (Elt Ideal))
    (Nrm : (⟨S2x1600000, .i32⟩ : BufTy).Contents (Elt Ideal) → (⟨S1700000, .f32⟩ : BufTy).Contents (Elt Ideal))
    (A1 : (⟨S1700000, .f32⟩ : BufTy).Contents (Elt Ideal) → (⟨S1700000, .i32⟩ : BufTy).Contents (Elt Ideal) → (⟨S1700000, .i32⟩ : BufTy).Contents (Elt Ideal) → (⟨S100000x64, .f32⟩ : BufTy).Contents (Elt Ideal) → (⟨S64, .f32⟩ : BufTy).Contents (Elt Ideal) → (⟨S100000x64, .f32⟩ : BufTy).Contents (Elt Ideal))
    (A2 : (⟨S1700000, .f32⟩ : BufTy).Contents (Elt Ideal) → (⟨S1700000, .i32⟩ : BufTy).Contents (Elt Ideal) → (⟨S1700000, .i32⟩ : BufTy).Contents (Elt Ideal) → (⟨S100000x40, .f32⟩ : BufTy).Contents (Elt Ideal) → (⟨S40, .f32⟩ : BufTy).Contents (Elt Ideal) → (⟨S100000x40, .f32⟩ : BufTy).Contents (Elt Ideal))
    (x : (⟨S100000x500, .f32⟩ : BufTy).Contents (Elt Ideal)) (ei : (⟨S2x1600000, .i32⟩ : BufTy).Contents (Elt Ideal)) (w1 : (⟨S500x64, .f32⟩ : BufTy).Contents (Elt Ideal)) (b1 : (⟨S64, .f32⟩ : BufTy).Contents (Elt Ideal))
    (w2 : (⟨S64x40, .f32⟩ : BufTy).Contents (Elt Ideal)) (b2 : (⟨S40, .f32⟩ : BufTy).Contents (Elt Ideal)) : (⟨S100000x40, .f32⟩ : BufTy).Contents (Elt Ideal) :=
  rowLogSoftmax (n := 100000)
    (relu (A2 (Nrm ei) (Src ei) (Dst ei) (prod2 (relu (A1 (Nrm ei) (Src ei) (Dst ei) (prod1 x w1) b1)) w2) b2))

end Cert.Spec

end
-- ==== Proof.Stretches.lean ====
/-
  The host operations the two programs share, stretch by stretch.

  Between its kernel regions the kernel's program applies, to the buffers it finds, the same host operations the reference
  applies at the same places. First, from the edge array alone: the source and the target index vectors (its two rows,
  each followed by the node numbers 0 … 99999) and the edge weights (count, for each node, the entries of the target
  vector that select it; take that count to the power −1/2 where the count is positive and 0 elsewhere; gather the
  result at the source and at the target indices, an index below zero first raised by 100000; multiply the two). Then,
  twice, the aggregation: gather the rows of a node array at the source indices in the same way, scale each by its
  edge's weight, add them up at the target indices, add the bias. Each stretch's result is a function of the few values
  the stretch reads, whatever else the buffers hold, and it is the SAME function in the two programs: the operations are
  the same, on buffers that merely carry different numbers. The functions themselves are never opened, and nothing about
  their values is used — in particular nothing about what a gather or a scatter does with an index out of range: only
  that the two programs share them.
-/
import proofs.«116660_j15212774162888_1_alg».proof.Proof.Gen.KernelIdeal.Launch
import proofs.«116660_j15212774162888_1_alg».proof.Proof.RefOps
import Idealize.ShloMosaic.Lib.StableHlo.Run

noncomputable section

namespace Cert.Stretches

open Idealize.ShloMosaic Idealize.ShloMosaic.TcCoe Idealize.SL.Sem Idealize.ShloMosaic.StableHlo

variable {F : FTy → Type} [FloatOps F]

set_option maxHeartbeats 16000000 in
open Cert.KernelIdeal in
/-- The source indices (the edge array's first row, then the nodes themselves): one function of the edge array in both programs. -/
theorem src_joint : ∃ A : (⟨S2x1600000, .i32⟩ : BufTy).Contents (Elt F) → (⟨S1700000, .i32⟩ : BufTy).Contents (Elt F),
    (∀ W' : Valuation Cert.KernelIdeal.τ Cert.KernelIdeal.sig (Elt F),
      StableHlo.after (Cert.KernelIdeal.Gen.hostOps0_2 (F := F)) (StableHlo.after (Cert.KernelIdeal.Gen.hostOps0_1 (F := F)) (StableHlo.after (Cert.KernelIdeal.Gen.hostOps0 (F := F)) W')) (Proc.devRef .tc Cert.KernelIdeal.main_v3) = A (W' (Proc.devRef .tc Cert.KernelIdeal.main_arg1)))
    ∧ (∀ W'' : Valuation Cert.ReferenceIdeal.τ Cert.ReferenceIdeal.sig (Elt F),
      StableHlo.after ((Cert.ReferenceIdeal.ValueP.ops (F := F)).take 40) W'' (Proc.devRef .tc Cert.ReferenceIdeal.main_v3) = A (W'' (Proc.devRef .tc Cert.ReferenceIdeal.main_arg1))) := by
  constructor
  case h =>
    constructor
    · intro W'
      dsimp only [Cert.KernelIdeal.Gen.hostOps0, Cert.KernelIdeal.Gen.hostOps0_1, Cert.KernelIdeal.Gen.hostOps0_2]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W' (Proc.devRef .tc Cert.KernelIdeal.main_arg1) = x0
      rfl
    · intro W''
      simp only [Cert.ReferenceIdeal.ValueP.ops, List.drop_succ_cons, List.drop_zero, List.take_succ_cons, List.take_zero]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W'' (Proc.devRef .tc Cert.ReferenceIdeal.main_arg1) = x0
      rfl

set_option maxHeartbeats 16000000 in
open Cert.KernelIdeal in
/-- The target indices (the edge array's second row, then the nodes themselves): one function of the edge array in both programs. -/
theorem dst_joint : ∃ A : (⟨S2x1600000, .i32⟩ : BufTy).Contents (Elt F) → (⟨S1700000, .i32⟩ : BufTy).Contents (Elt F),
    (∀ W' : Valuation Cert.KernelIdeal.τ Cert.KernelIdeal.sig (Elt F),
      StableHlo.after (Cert.KernelIdeal.Gen.hostOps0_2 (F := F)) (StableHlo.after (Cert.KernelIdeal.Gen.hostOps0_1 (F := F)) (StableHlo.after (Cert.KernelIdeal.Gen.hostOps0 (F := F)) W')) (Proc.devRef .tc Cert.KernelIdeal.main_v6) = A (W' (Proc.devRef .tc Cert.KernelIdeal.main_arg1)))
    ∧ (∀ W'' : Valuation Cert.ReferenceIdeal.τ Cert.ReferenceIdeal.sig (Elt F),
      StableHlo.after ((Cert.ReferenceIdeal.ValueP.ops (F := F)).take 40) W'' (Proc.devRef .tc Cert.ReferenceIdeal.main_v6) = A (W'' (Proc.devRef .tc Cert.ReferenceIdeal.main_arg1))) := by
  constructor
  case h =>
    constructor
    · intro W'
      dsimp only [Cert.KernelIdeal.Gen.hostOps0, Cert.KernelIdeal.Gen.hostOps0_1, Cert.KernelIdeal.Gen.hostOps0_2]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W' (Proc.devRef .tc Cert.KernelIdeal.main_arg1) = x0
      rfl
    · intro W''
      simp only [Cert.ReferenceIdeal.ValueP.ops, List.drop_succ_cons, List.drop_zero, List.take_succ_cons, List.take_zero]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W'' (Proc.devRef .tc Cert.ReferenceIdeal.main_arg1) = x0
      rfl

set_option maxHeartbeats 32000000 in
open Cert.KernelIdeal in
/-- The edge weights (the guarded power −1/2 of the target counts, gathered at both ends of each edge and multiplied — the header says how): one function of the edge array in both programs. -/
theorem nrm_joint : ∃ A : (⟨S2x1600000, .i32⟩ : BufTy).Contents (Elt F) → (⟨S1700000, .f32⟩ : BufTy).Contents (Elt F),
    (∀ W' : Valuation Cert.KernelIdeal.τ Cert.KernelIdeal.sig (Elt F),
      StableHlo.after (Cert.KernelIdeal.Gen.hostOps0_2 (F := F)) (StableHlo.after (Cert.KernelIdeal.Gen.hostOps0_1 (F := F)) (StableHlo.after (Cert.KernelIdeal.Gen.hostOps0 (F := F)) W')) (Proc.devRef .tc Cert.KernelIdeal.main_v29) = A (W' (Proc.devRef .tc Cert.KernelIdeal.main_arg1)))
    ∧ (∀ W'' : Valuation Cert.ReferenceIdeal.τ Cert.ReferenceIdeal.sig (Elt F),
      StableHlo.after ((Cert.ReferenceIdeal.ValueP.ops (F := F)).take 40) W'' (Proc.devRef .tc Cert.ReferenceIdeal.main_v29) = A (W'' (Proc.devRef .tc Cert.ReferenceIdeal.main_arg1))) := by
  constructor
  case h =>
    constructor
    · intro W'
      dsimp only [Cert.KernelIdeal.Gen.hostOps0, Cert.KernelIdeal.Gen.hostOps0_1, Cert.KernelIdeal.Gen.hostOps0_2]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W' (Proc.devRef .tc Cert.KernelIdeal.main_arg1) = x0
      rfl
    · intro W''
      simp only [Cert.ReferenceIdeal.ValueP.ops, List.drop_succ_cons, List.drop_zero, List.take_succ_cons, List.take_zero]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W'' (Proc.devRef .tc Cert.ReferenceIdeal.main_arg1) = x0
      rfl

set_option maxHeartbeats 8000000 in
open Cert.KernelIdeal in
/-- The first aggregation, of a 100000 × 64 node array: one function, in both programs, of the normalisation, the source and target indices, the node array and the bias. -/
theorem agg1_joint : ∃ A : (⟨S1700000, .f32⟩ : BufTy).Contents (Elt F) → (⟨S1700000, .i32⟩ : BufTy).Contents (Elt F) → (⟨S1700000, .i32⟩ : BufTy).Contents (Elt F) → (⟨S100000x64, .f32⟩ : BufTy).Contents (Elt F) → (⟨S64, .f32⟩ : BufTy).Contents (Elt F) → (⟨S100000x64, .f32⟩ : BufTy).Contents (Elt F),
    (∀ W' : Valuation Cert.KernelIdeal.τ Cert.KernelIdeal.sig (Elt F),
      StableHlo.after (Cert.KernelIdeal.Gen.hostOps1 (F := F)) W' (Proc.devRef .tc Cert.KernelIdeal.main_v46) = A (W' (Proc.devRef .tc Cert.KernelIdeal.main_v29)) (W' (Proc.devRef .tc Cert.KernelIdeal.main_v3)) (W' (Proc.devRef .tc Cert.KernelIdeal.main_v6)) (W' (Proc.devRef .tc Cert.KernelIdeal.main_v30)) (W' (Proc.devRef .tc Cert.KernelIdeal.main_arg3)))
    ∧ (∀ W'' : Valuation Cert.ReferenceIdeal.τ Cert.ReferenceIdeal.sig (Elt F),
      StableHlo.after (((Cert.ReferenceIdeal.ValueP.ops (F := F)).drop 41).take 19) W'' (Proc.devRef .tc Cert.ReferenceIdeal.main_v46) = A (W'' (Proc.devRef .tc Cert.ReferenceIdeal.main_v29)) (W'' (Proc.devRef .tc Cert.ReferenceIdeal.main_v3)) (W'' (Proc.devRef .tc Cert.ReferenceIdeal.main_v6)) (W'' (Proc.devRef .tc Cert.ReferenceIdeal.main_v30)) (W'' (Proc.devRef .tc Cert.ReferenceIdeal.main_arg3))) := by
  constructor
  case h =>
    constructor
    · intro W'
      dsimp only [Cert.KernelIdeal.Gen.hostOps1]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W' (Proc.devRef .tc Cert.KernelIdeal.main_v29) = x0
      generalize W' (Proc.devRef .tc Cert.KernelIdeal.main_v3) = x1
      generalize W' (Proc.devRef .tc Cert.KernelIdeal.main_v6) = x2
      generalize W' (Proc.devRef .tc Cert.KernelIdeal.main_v30) = x3
      generalize W' (Proc.devRef .tc Cert.KernelIdeal.main_arg3) = x4
      rfl
    · intro W''
      simp only [Cert.ReferenceIdeal.ValueP.ops, List.drop_succ_cons, List.drop_zero, List.take_succ_cons, List.take_zero]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W'' (Proc.devRef .tc Cert.ReferenceIdeal.main_v29) = x0
      generalize W'' (Proc.devRef .tc Cert.ReferenceIdeal.main_v3) = x1
      generalize W'' (Proc.devRef .tc Cert.ReferenceIdeal.main_v6) = x2
      generalize W'' (Proc.devRef .tc Cert.ReferenceIdeal.main_v30) = x3
      generalize W'' (Proc.devRef .tc Cert.ReferenceIdeal.main_arg3) = x4
      rfl

set_option maxHeartbeats 8000000 in
open Cert.KernelIdeal in
/-- The second aggregation, of a 100000 × 40 node array: one function, in both programs, of the edge weights, the source and target indices, the node array and the bias. (The node array and the result carry different buffer numbers in the two programs.) -/
theorem agg2_joint : ∃ A : (⟨S1700000, .f32⟩ : BufTy).Contents (Elt F) → (⟨S1700000, .i32⟩ : BufTy).Contents (Elt F) → (⟨S1700000, .i32⟩ : BufTy).Contents (Elt F) → (⟨S100000x40, .f32⟩ : BufTy).Contents (Elt F) → (⟨S40, .f32⟩ : BufTy).Contents (Elt F) → (⟨S100000x40, .f32⟩ : BufTy).Contents (Elt F),
    (∀ W' : Valuation Cert.KernelIdeal.τ Cert.KernelIdeal.sig (Elt F),
      StableHlo.after (Cert.KernelIdeal.Gen.hostOps2 (F := F)) W' (Proc.devRef .tc Cert.KernelIdeal.main_v63) = A (W' (Proc.devRef .tc Cert.KernelIdeal.main_v29)) (W' (Proc.devRef .tc Cert.KernelIdeal.main_v3)) (W' (Proc.devRef .tc Cert.KernelIdeal.main_v6)) (W' (Proc.devRef .tc Cert.KernelIdeal.main_v47)) (W' (Proc.devRef .tc Cert.KernelIdeal.main_arg5)))
    ∧ (∀ W'' : Valuation Cert.ReferenceIdeal.τ Cert.ReferenceIdeal.sig (Elt F),
      StableHlo.after (((Cert.ReferenceIdeal.ValueP.ops (F := F)).drop 64).take 19) W'' (Proc.devRef .tc Cert.ReferenceIdeal.main_v64) = A (W'' (Proc.devRef .tc Cert.ReferenceIdeal.main_v29)) (W'' (Proc.devRef .tc Cert.ReferenceIdeal.main_v3)) (W'' (Proc.devRef .tc Cert.ReferenceIdeal.main_v6)) (W'' (Proc.devRef .tc Cert.ReferenceIdeal.main_v48)) (W'' (Proc.devRef .tc Cert.ReferenceIdeal.main_arg5))) := by
  constructor
  case h =>
    constructor
    · intro W'
      dsimp only [Cert.KernelIdeal.Gen.hostOps2]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W' (Proc.devRef .tc Cert.KernelIdeal.main_v29) = x0
      generalize W' (Proc.devRef .tc Cert.KernelIdeal.main_v3) = x1
      generalize W' (Proc.devRef .tc Cert.KernelIdeal.main_v6) = x2
      generalize W' (Proc.devRef .tc Cert.KernelIdeal.main_v47) = x3
      generalize W' (Proc.devRef .tc Cert.KernelIdeal.main_arg5) = x4
      rfl
    · intro W''
      simp only [Cert.ReferenceIdeal.ValueP.ops, List.drop_succ_cons, List.drop_zero, List.take_succ_cons, List.take_zero]
      after_results_simp
      repeat (first
          | rw [reshape_result] | rw [unary_result] | rw [binary_result] | rw [ternary_result] | rw [nullary_result]
          | (rw [nullary_result_ne]; rotate_left; decide)
          | (rw [unary_result_ne]; rotate_left; decide)
          | (rw [binary_result_ne]; rotate_left; decide)
          | (rw [ternary_result_ne]; rotate_left; decide)
          | (rw [reshape_result_ne]; rotate_left; decide))
      generalize W'' (Proc.devRef .tc Cert.ReferenceIdeal.main_v29) = x0
      generalize W'' (Proc.devRef .tc Cert.ReferenceIdeal.main_v3) = x1
      generalize W'' (Proc.devRef .tc Cert.ReferenceIdeal.main_v6) = x2
      generalize W'' (Proc.devRef .tc Cert.ReferenceIdeal.main_v48) = x3
      generalize W'' (Proc.devRef .tc Cert.ReferenceIdeal.main_arg5) = x4
      rfl

end Cert.Stretches

end
-- ==== Proof.KernelRun.lean ====
/-
  The idealized kernel's run with its result named.

  Along @main the contents of the TensorCore's buffers are known at every boundary between a stretch of host
  operations and a kernel region: a stretch applies its operations to what it finds, and a region leaves each of
  its arrays at what its grid points wrote back and every other buffer as it found it. Every unscoped buffer
  therefore ends at the last boundary's contents `W8`. Read at the six argument arrays this is the frame; read also
  at the result array it says what the program computes: the result ends at `W8 m ρ c main_v64`.
-/
import proofs.«116660_j15212774162888_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the six argument arrays as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ResultRun

end
-- ==== Proof.FirstProduct.lean ====
/-
  The first kernel region computes the product x · W1.

  The region's grid has 50 points. Point t takes rows 2000 t … 2000 t + 1999 of x and the whole of W1, and writes rows
  2000 t … 2000 t + 1999 of the result. An entry of a product depends only on its own row of the left factor, so the
  block a point writes is the corresponding block of the whole product; and the 50 row blocks cover the 100000 rows
  (row r lies in block r / 2000). Hence the result array ends holding the whole product.
-/
import proofs.«116660_j15212774162888_1_alg».proof.Proof.Gen.KernelIdeal.Frame
import proofs.«116660_j15212774162888_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.FirstProduct

open Cert.KernelIdeal Cert.KernelIdeal.Gen Cert.Spec

/-- The contraction of one 2000 × 500 block with the 500 × 64 weights. -/
abbrev D := dot_S2000x500_S500x64_S2000x64_1_0_0_1_n_n

/-- Inside a block: for entry `j` = (r, c) and `k` on the shared axis, the left factor's index (r, k). -/
abbrev leftIn (j : S2000x64.Idx) (k : Fin 500) : S2000x500.Idx := fun a => match a with
  | ⟨0, _⟩ => ⟨(j 0).val, (j 0).isLt⟩
  | ⟨1, _⟩ => ⟨k.val, k.isLt⟩
/-- … and the right factor's index (k, c). -/
abbrev rightIn (j : S2000x64.Idx) (k : Fin 500) : S500x64.Idx := fun a => match a with
  | ⟨0, _⟩ => ⟨k.val, k.isLt⟩
  | ⟨1, _⟩ => ⟨(j 1).val, (j 1).isLt⟩

theorem lhs_row (i : S2000x64.Idx) (q : D.contr.Idx) : (D.lhsIdx i q 0).val = (i 0).val := by
  unfold DotDims.lhsIdx
  rw [dif_neg (show ¬(0 : Fin S2000x500.rank) ∈ D.lhsBatch by decide), dif_pos (show (0 : Fin S2000x500.rank) ∈ D.lhsNonContracting by decide)]
  rfl
theorem lhs_shared (i : S2000x64.Idx) (q : D.contr.Idx) : (D.lhsIdx i q 1).val = (q ⟨0, by decide⟩).val :=
  D.lhsIdx_val_of_single rfl i q
theorem rhs_shared (i : S2000x64.Idx) (q : D.contr.Idx) : (D.rhsIdx i q 0).val = (q ⟨0, by decide⟩).val :=
  D.rhsIdx_val_of_single rfl i q
theorem rhs_col (i : S2000x64.Idx) (q : D.contr.Idx) : (D.rhsIdx i q 1).val = (i 1).val := by
  unfold DotDims.rhsIdx
  rw [dif_neg (show ¬(1 : Fin S500x64.rank) ∈ D.rhsBatch by decide), dif_pos (show (1 : Fin S500x64.rank) ∈ D.rhsNonContracting by decide)]
  rfl

/-- What a point stores, entry by entry: the changes of float format are the identity on the extended reals and the
    accumulator is zero, so entry (r, c) is the sum over k of the block's (r, k) times the weights' (k, c). -/
theorem stored_apply (x0 : Vec Ideal S2000x500 .f32) (x1 : Vec Ideal S500x64 .f32) (j : S2000x64.Idx) :
    k0_pay1 (F := Ideal) x0 x1 j = ∑ k : Fin 500, x0 (leftIn j k) * x1 (rightIn j k) := by
  unfold k0_pay1
  show FloatOps.matmul D none _ _ (constant S2000x64 .f32 0x00000000#32) j = _
  rw [Ideal.matmul_constant_zero_apply, ← Equiv.sum_comp (ValueIdx.contrEquiv1 D 500 rfl rfl).symm]
  refine Finset.sum_congr rfl fun k _ => ?_
  have hk := ValueIdx.contrEquiv1_symm_val D 500 rfl rfl k
  have el : D.lhsIdx j ((ValueIdx.contrEquiv1 D 500 rfl rfl).symm k) = leftIn j k := funext fun a => Fin.ext (by
    match a with
    | ⟨0, _⟩ => exact lhs_row _ _
    | ⟨1, _⟩ => exact (lhs_shared _ _).trans hk)
  have er : D.rhsIdx j ((ValueIdx.contrEquiv1 D 500 rfl rfl).symm k) = rightIn j k := funext fun a => Fin.ext (by
    match a with
    | ⟨0, _⟩ => exact (rhs_shared _ _).trans hk
    | ⟨1, _⟩ => exact rhs_col _ _)
  show x0 (D.lhsIdx j _) * x1 (D.rhsIdx j _) = _
  rw [el, er]

theorem hz : (![0, 0] : Fin 2 → Nat) = fun _ => 0 := funext fun a => by fin_cases a <;> rfl

/-- The index maps over the grid: point t reads row block t of x, the whole of W1, and writes row block t. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays the region finds. -/
theorem flushed_eq (c : Dev nD) (t : Fin cfg0.N) :
    (dat0 V c).flushed 2 t = ((cfg0.win 2).blk t).view.read (Elt Ideal) (prod1 (V c main_arg0) (V c main_arg2)) := by
  show (cfg0.win 2).cut (grid0.coords t) ((dat0 V c).after 2 t) = _
  rw [after0_2]
  unfold out0_2
  rw [View.canon_unit_zero hz]
  simp only [View.ld_unit_zero (S := S2000x500) hz, View.ld_unit_zero (S := S500x64) hz]
  obtain ⟨e0, e1, e2, e3, e4, e5⟩ := idx_facts t
  funext j
  show k0_pay1 (iblk0 V c 0 t) (iblk0 V c 1 t) j = prod1 (V c main_arg0) (V c main_arg2) (((cfg0.win 2).blk t).view.emb j)
  refine (stored_apply (iblk0 V c 0 t) (iblk0 V c 1 t) j).trans ?_
  unfold prod1
  refine Finset.sum_congr rfl fun k _ => ?_
  have h0 : ((cfg0.win 0).blk t).view.emb (leftIn j k) = leftAt1 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 500 + 1 * k.val = k.val; omega
  have h1 : ((cfg0.win 1).blk t).view.emb (rightIn j k) = rightAt1 (((cfg0.win 2).blk t).view.emb j) k := by
    funext a; apply Fin.ext
    match a with
    | ⟨0, _⟩ => show win0_1.index t (0 : Fin 2) * 500 + 1 * k.val = k.val; omega
    | ⟨1, _⟩ => show win0_1.index t (1 : Fin 2) * 64 + 1 * (j 1).val = win0_2.index t (1 : Fin 2) * 64 + 1 * (j 1).val; omega
  have r0 : iblk0 V c 0 t (leftIn j k) = V c main_arg0 (leftAt1 (((cfg0.win 2).blk t).view.emb j) k) := by
    show V c main_arg0 (((cfg0.win 0).blk t).view.emb (leftIn j k)) = _
    rw [h0]
  have r1 : iblk0 V c 1 t (rightIn j k) = V c main_arg2 (rightAt1 (((cfg0.win 2).blk t).view.emb j) k) := by
    show V c main_arg2 (((cfg0.win 1).blk t).view.emb (rightIn j k)) = _
    rw [h1]
  rw [r0, r1]

/-- An index of the result is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Every entry of the result lies in some point's block: row r in block r / 2000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  have hlt : (i 0).val / 2000 < cfg0.N := by rw [hN]; omega
  obtain ⟨e0, e1, e2, e3, e4, e5⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 64 ≤ (i 1).val ∧ (i 1).val < win0_2.index ⟨(i 0).val / 2000, hlt⟩ (1 : Fin 2) * 64 + 64
    rw [e5]; omega

/-- The result array after the region: the whole product of the arrays the region finds. -/
theorem value (c : Dev nD) : (dat0 V c).arrAt 2 cfg0.N = prod1 (V c main_arg0) (V c main_arg2) :=
  (dat0 V c).arrAt_eq_of_cover 2 (prod1 (V c main_arg0) (V c main_arg2)) (fun t _ => flushed_eq V c t) cover

end Cert.KernelIdeal.FirstProduct

end
-- ==== Proof.SecondProduct.lean ====
/-
  The second kernel region computes the product relu(a) · W2, where a is the array it is given.

  As in the first region the grid has 50 points; point t takes rows 2000 t … 2000 t + 1999 of a and the whole of W2,
  replaces each entry of its block by the larger of the entry and zero, and writes rows 2000 t … 2000 t + 1999 of the
  product. The rectifier acts entry by entry and an entry of a product depends only on its own row of the left factor, so
  the block a point writes is the corresponding block of the whole product of relu(a) with W2, and the 50 row blocks cover
  the 100000 rows.
-/
import proofs.«116660_j15212774162888_1_alg».proof.Proof.Gen.KernelIdeal.Frame
import proofs.«116660_j15212774162888_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.SecondProduct

open Cert.KernelIdeal Cert.KernelIdeal.Gen Cert.Spec

/-- The contraction of one 2000 × 64 block with the 64 × 40 weights. -/
abbrev D := dot_S2000x64_S64x40_S2000x40_1_0_0_1_n_n

/-- Inside a block: for entry `j` = (r, c) and `k` on the shared axis, the left factor's index (r, k). -/
abbrev leftIn (j : S2000x40.Idx) (k : Fin 64) : S2000x64.Idx := fun a => match a with
  | ⟨0, _⟩ => ⟨(j 0).val, (j 0).isLt⟩
  | ⟨1, _⟩ => ⟨k.val, k.isLt⟩
/-- … and the right factor's index (k, c). -/
abbrev rightIn (j : S2000x40.Idx) (k : Fin 64) : S64x40.Idx := fun a => match a with
  | ⟨0, _⟩ => ⟨k.val, k.isLt⟩
  | ⟨1, _⟩ => ⟨(j 1).val, (j 1).isLt⟩

theorem lhs_row (i : S2000x40.Idx) (q : D.contr.Idx) : (D.lhsIdx i q 0).val = (i 0).val := by
  unfold DotDims.lhsIdx
  rw [dif_neg (show ¬(0 : Fin S2000x64.rank) ∈ D.lhsBatch by decide), dif_pos (show (0 : Fin S2000x64.rank) ∈ D.lhsNonContracting by decide)]
  rfl
theorem lhs_shared (i : S2000x40.Idx) (q : D.contr.Idx) : (D.lhsIdx i q 1).val = (q ⟨0, by decide⟩).val :=
  D.lhsIdx_val_of_single rfl i q
theorem rhs_shared (i : S2000x40.Idx) (q : D.contr.Idx) : (D.rhsIdx i q 0).val = (q ⟨0, by decide⟩).val :=
  D.rhsIdx_val_of_single rfl i q
theorem rhs_col (i : S2000x40.Idx) (q : D.contr.Idx) : (D.rhsIdx i q 1).val = (i 1).val := by
  unfold DotDims.rhsIdx
  rw [dif_neg (show ¬(1 : Fin S64x40.rank) ∈ D.rhsBatch by decide), dif_pos (show (1 : Fin S64x40.rank) ∈ D.rhsNonContracting by decide)]
  rfl

/-- What a point stores, entry by entry: the block is first rectified entry by entry (the cast to its own shape and the
    changes of float format are the identity), then contracted with the weights into a zero accumulator, so entry
    (r, c) is the sum over k of max (block (r, k), 0) times the weights' (k, c). -/
theorem stored_apply (x0 : Vec Ideal S2000x64 .f32) (x1 : Vec Ideal S64x40 .f32) (j : S2000x40.Idx) :
    k1_pay1 (F := Ideal) x0 x1 j
      = ∑ k : Fin 64, FloatOps.maximumf (F := Ideal) (x0 (leftIn j k)) (FloatOps.ofBits .f32 0x00000000#32) * x1 (rightIn j k) := by
  unfold k1_pay1
  show FloatOps.matmul D none _ _ (constant S2000x40 .f32 0x00000000#32) j = _
  rw [Ideal.matmul_constant_zero_apply, ← Equiv.sum_comp (ValueIdx.contrEquiv1 D 64 rfl rfl).symm]
  refine Finset.sum_congr rfl fun k _ => ?_
  have hk := ValueIdx.contrEquiv1_symm_val D 64 rfl rfl k
  have el : D.lhsIdx j ((ValueIdx.contrEquiv1 D 64 rfl rfl).symm k) = leftIn j k := funext fun a => Fin.ext (by
    match a with
    | ⟨0, _⟩ => exact lhs_row _ _
    | ⟨1, _⟩ => exact (lhs_shared _ _).trans hk)
  have er : D.rhsIdx j ((ValueIdx.contrEquiv1 D 64 rfl rfl).symm k) = rightIn j k := funext fun a => Fin.ext (by
    match a with
    | ⟨0, _⟩ => exact (rhs_shared _ _).trans hk
    | ⟨1, _⟩ => exact rhs_col _ _)
  rw [shapeCast_self]
  show FloatOps.maximumf (F := Ideal) (x0 (D.lhsIdx j _)) (FloatOps.ofBits .f32 0x00000000#32) * x1 (D.rhsIdx j _) = _
  rw [el, er]

theorem hz : (![0, 0] : Fin 2 → Nat) = fun _ => 0 := funext fun a => by fin_cases a <;> rfl

/-- The index maps over the grid: point t reads row block t of the input, the whole of W2, and writes row block t. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole product of the rectified input with the weights. -/
theorem flushed_eq (c : Dev nD) (t : Fin cfg1.N) :
    (dat1 V c).flushed 2 t = ((cfg1.win 2).blk t).view.read (Elt Ideal) (prod2 (relu (V c main_v46)) (V c main_arg4)) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x40) hz]
  obtain ⟨e0, e1, e2, e3, e4, e5⟩ := idx_facts t
  funext j
  show k1_pay1 (iblk1 V c 0 t) (iblk1 V c 1 t) j = prod2 (relu (V c main_v46)) (V c main_arg4) (((cfg1.win 2).blk t).view.emb j)
  refine (stored_apply (iblk1 V c 0 t) (iblk1 V c 1 t) j).trans ?_
  unfold prod2 relu
  refine Finset.sum_congr rfl fun k _ => ?_
  have h0 : ((cfg1.win 0).blk t).view.emb (leftIn j k) = leftAt2 (((cfg1.win 2).blk t).view.emb j) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * k.val = k.val; omega
  have h1 : ((cfg1.win 1).blk t).view.emb (rightIn j k) = rightAt2 (((cfg1.win 2).blk t).view.emb j) k := by
    funext a; apply Fin.ext
    match a with
    | ⟨0, _⟩ => show win1_1.index t (0 : Fin 2) * 64 + 1 * k.val = k.val; omega
    | ⟨1, _⟩ => show win1_1.index t (1 : Fin 2) * 40 + 1 * (j 1).val = win1_2.index t (1 : Fin 2) * 40 + 1 * (j 1).val; omega
  have r0 : iblk1 V c 0 t (leftIn j k) = V c main_v46 (leftAt2 (((cfg1.win 2).blk t).view.emb j) k) := by
    show V c main_v46 (((cfg1.win 0).blk t).view.emb (leftIn j k)) = _
    rw [h0]
  have r1 : iblk1 V c 1 t (rightIn j k) = V c main_arg4 (rightAt2 (((cfg1.win 2).blk t).view.emb j) k) := by
    show V c main_arg4 (((cfg1.win 1).blk t).view.emb (rightIn j k)) = _
    rw [h1]
  rw [r0, r1]

/-- An index of the result is in point t's block iff each coordinate is in the block's range on its axis. -/
theorem mem_blk (t : Fin cfg1.N) (i : S100000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v47).slice (win1_2.rect t)).set ↔ _
  rw [View.set_slice_whole, Rect.mem_set_unit]
  exact Iff.rfl

/-- Every entry of the result lies in some point's block: row r in block r / 2000. -/
theorem cover (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 50 := N_1
  have hlt : (i 0).val / 2000 < cfg1.N := by rw [hN]; omega
  obtain ⟨e0, e1, e2, e3, e4, e5⟩ := idx_facts ⟨(i 0).val / 2000, hlt⟩
  refine ⟨⟨(i 0).val / 2000, hlt⟩, flush1_2 _, ?_⟩
  rw [mem_blk]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hlt⟩ (1 : Fin 2) * 40 ≤ (i 1).val ∧ (i 1).val < win1_2.index ⟨(i 0).val / 2000, hlt⟩ (1 : Fin 2) * 40 + 40
    rw [e5]; omega

/-- The result array after the region: the whole product of the rectified input with the weights. -/
theorem value (c : Dev nD) : (dat1 V c).arrAt 2 cfg1.N = prod2 (relu (V c main_v46)) (V c main_arg4) :=
  (dat1 V c).arrAt_eq_of_cover 2 (prod2 (relu (V c main_v46)) (V c main_arg4)) (fun t _ => flushed_eq V c t) cover

end Cert.KernelIdeal.SecondProduct

end
-- ==== Proof.SoftmaxBlock.lean ====
/-
  What a point of the third kernel region stores: the logarithm of the softmax of each row of its rectified block.

  The body replaces each entry of its 2000 × 40 block by the larger of the entry and zero; takes each row's largest
  entry (a reduction over the columns from −∞), keeps it as a column and spreads it over the 40 columns; subtracts; takes
  each row's sum of exponentials (a reduction over the columns from zero), keeps it as a column, takes its logarithm,
  spreads it and subtracts again. A column kept as a [2000, 1] array and spread over the columns holds, at (r, c), the
  column's value at r; a reduction over the columns at r is the fold, or the sum, over the 40 entries (r, ·). So the
  stored block is, entry by entry, the row-wise logarithm of the softmax of the rectified block.
-/
import proofs.«116660_j15212774162888_1_alg».proof.Proof.Gen.KernelIdeal.Skeleton
import proofs.«116660_j15212774162888_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe

namespace Cert.KernelIdeal.SoftmaxBlock

open Cert.KernelIdeal Cert.KernelIdeal.Gen Cert.Spec Idealize.ShloMosaic.ValueIdx

/-- The index (r, 0) of the kept column reads the column at r: the two positions in row-major order agree. -/
theorem col_pos (r : Fin 2000) : (S2000.rowMajor (ix1 r)).val = (S2000x1.rowMajor (ix2 r (0 : Fin 1))).val := by
  rw [Shape.rowMajor_val_one, Shape.rowMajor_val_two]
  show r.val = r.val * 1 + 0
  omega

/-- Spreading a [2000, 1] array over 40 columns reads, at (r, c), the array at (r, 0). -/
theorem spread_idx (r : Fin 2000) (c : Fin 40) : ∀ a : Fin S2000x1.rank,
    ((ix2 r (0 : Fin 1) : S2000x1.Idx) a).val
      = if S2000x1.size a = 1 then 0 else ((ix2 r c : S2000x40.Idx) ⟨a.val + (S2000x40.rank - S2000x1.rank), by have := a.isLt; omega⟩).val := by
  intro a
  match a with
  | ⟨0, _⟩ => show r.val = if (2000 : Nat) = 1 then 0 else r.val; rw [if_neg (by decide)]
  | ⟨1, _⟩ => show (0 : Nat) = if (1 : Nat) = 1 then 0 else c.val; rw [if_pos rfl]

/-- A column of 2000 values, kept as a [2000, 1] array and spread over the 40 columns, holds at (r, c) the value at r. -/
theorem spread_apply (v : FVec Ideal S2000 .f32) (r : Fin 2000) (c : Fin 40) :
    broadcastTo S2000x40 (shapeCast S2000x1 v shapeCasts_S2000_S2000x1) broadcasts_S2000x1_S2000x40 (ix2 r c) = v (ix1 r) :=
  (broadcastTo_apply _ _ (ix2 r c) (ix2 r (0 : Fin 1)) (spread_idx r c)).trans
    (shapeCast_apply v _ (ix2 r (0 : Fin 1)) (ix1 r) (col_pos r))

/-- The same with the logarithm taken of the kept column before it is spread. -/
theorem spread_log_apply (v : FVec Ideal S2000 .f32) (r : Fin 2000) (c : Fin 40) :
    broadcastTo S2000x40 (log (shapeCast S2000x1 v shapeCasts_S2000_S2000x1)) broadcasts_S2000x1_S2000x40 (ix2 r c)
      = FloatOps.log (F := Ideal) (v (ix1 r)) :=
  (broadcastTo_apply _ _ (ix2 r c) (ix2 r (0 : Fin 1)) (spread_idx r c)).trans
    (congrArg (FloatOps.log (F := Ideal)) (shapeCast_apply v _ (ix2 r (0 : Fin 1)) (ix1 r) (col_pos r)))

/-- Over the columns, the source index above row r with column k is (r, k). -/
theorem lift_eq (r : Fin 2000) (k : Fin 40) : reduces_S2000x40_S2000.lift (ix1 r) k = ix2 r k :=
  funext fun a => Fin.ext (by
    match a with
    | ⟨0, _⟩ => rfl
    | ⟨1, _⟩ => rfl)

/-- The reduction by `max` over the columns from −∞, at r: the largest entry of row r. -/
theorem rowmax_apply (y : FVec Ideal S2000x40 .f32) (hφ : FKind.Formats .f32)
    (hacc : (0xFF800000#32 : BitVec 32) = FKind.maximumf.neutral .f32 hφ) (r : Fin 2000) :
    multiReduction .maximumf [1] S2000 y 0xFF800000#32 reduces_S2000x40_S2000 hφ hacc (ix1 r) = rowMax (n := 2000) y r := by
  refine (Ideal.multiReduction_maximumf_single y _ reduces_S2000x40_S2000 hφ hacc (ix1 r)).trans ?_
  unfold rowMax
  show (Finset.univ : Finset (Fin 40)).fold (FloatOps.maximumf (F := Ideal)) (FloatOps.ofBits .f32 0xFF800000#32)
      (fun k => y (reduces_S2000x40_S2000.lift (ix1 r) k)) = _
  exact congrArg (fun f : Fin 40 → Ideal .f32 => (Finset.univ : Finset (Fin 40)).fold (FloatOps.maximumf (F := Ideal)) (FloatOps.ofBits .f32 0xFF800000#32) f)
    (funext fun k => congrArg y (lift_eq r k))

/-- The reduction by addition over the columns from zero, at r: the sum of row r. -/
theorem rowsum_apply (z : FVec Ideal S2000x40 .f32) (hφ : FKind.Formats .f32)
    (hacc : (0x00000000#32 : BitVec 32) = FKind.add.neutral .f32 hφ) (r : Fin 2000) :
    multiReduction .add [1] S2000 z 0x00000000#32 reduces_S2000x40_S2000 hφ hacc (ix1 r) = ∑ c : Fin 40, z (ix2 r c) := by
  refine (Ideal.multiReduction_add_single z _ reduces_S2000x40_S2000 hφ hacc (ix1 r)).trans ?_
  show ∑ k : Fin 40, z (reduces_S2000x40_S2000.lift (ix1 r) k) = _
  exact Finset.sum_congr rfl fun k _ => congrArg z (lift_eq r k)

/-! The body's steps, named. -/

/-- Each row's largest entry, as a vector over the rows. -/
abbrev maxOverCols (y : FVec Ideal S2000x40 .f32) : FVec Ideal S2000 .f32 :=
  multiReduction .maximumf [1] S2000 y 0xFF800000#32 reduces_S2000x40_S2000 (.inl rfl) rfl
/-- A vector over the rows kept as a column and spread over the 40 columns. -/
abbrev spread (v : FVec Ideal S2000 .f32) : FVec Ideal S2000x40 .f32 :=
  broadcastTo S2000x40 (shapeCast S2000x1 v shapeCasts_S2000_S2000x1) broadcasts_S2000x1_S2000x40
/-- Each entry less its row's largest entry. -/
abbrev shiftByMax (y : FVec Ideal S2000x40 .f32) : FVec Ideal S2000x40 .f32 := subf y (spread (maxOverCols y))
/-- Each row's sum, as a vector over the rows. -/
abbrev sumOverCols (z : FVec Ideal S2000x40 .f32) : FVec Ideal S2000 .f32 :=
  multiReduction .add [1] S2000 z 0x00000000#32 reduces_S2000x40_S2000 (.inl rfl) rfl
/-- The logarithm of a vector over the rows, kept as a column and spread over the 40 columns. -/
abbrev spreadLog (v : FVec Ideal S2000 .f32) : FVec Ideal S2000x40 .f32 :=
  broadcastTo S2000x40 (log (shapeCast S2000x1 v shapeCasts_S2000_S2000x1)) broadcasts_S2000x1_S2000x40

/-- The stored block in those steps: the cast of the block to its own shape is the identity. -/
theorem stored_steps (x0 : Vec Ideal S2000x40 .f32) :
    k2_pay1 (F := Ideal) x0 = subf (shiftByMax (relu x0)) (spreadLog (sumOverCols (exp (shiftByMax (relu x0))))) := by
  unfold k2_pay1
  rw [shapeCast_self]
  rfl

/-- The stored block is the row-wise logarithm of the softmax of the rectified block. -/
theorem stored_eq (x0 : Vec Ideal S2000x40 .f32) : k2_pay1 (F := Ideal) x0 = rowLogSoftmax (n := 2000) (relu x0) := by
  funext j
  obtain ⟨r, c, rfl⟩ : ∃ (r : Fin 2000) (c : Fin 40), j = ix2 r c := ⟨j 0, j 1, eq_ix2 j⟩
  rw [stored_steps]
  have hshift : ∀ c' : Fin 40, shiftByMax (relu x0) (ix2 r c') = rowShift (n := 2000) (relu x0) (ix2 r c') := fun c' => by
    show FloatOps.subf (F := Ideal) (relu x0 (ix2 r c')) (spread (maxOverCols (relu x0)) (ix2 r c'))
       = FloatOps.subf (F := Ideal) (relu x0 (ix2 r c')) (rowMax (n := 2000) (relu x0) r)
    exact congrArg (FloatOps.subf (F := Ideal) (relu x0 (ix2 r c')))
      ((spread_apply (maxOverCols (relu x0)) r c').trans (rowmax_apply (relu x0) _ _ r))
  have hsum : sumOverCols (exp (shiftByMax (relu x0))) (ix1 r) = rowSum (n := 2000) (relu x0) r := by
    refine (rowsum_apply _ _ _ r).trans ?_
    unfold rowSum
    exact Finset.sum_congr rfl fun c' _ => congrArg (FloatOps.exp (F := Ideal)) (hshift c')
  show FloatOps.subf (F := Ideal) (shiftByMax (relu x0) (ix2 r c)) (spreadLog (sumOverCols (exp (shiftByMax (relu x0)))) (ix2 r c))
     = FloatOps.subf (F := Ideal) (rowShift (n := 2000) (relu x0) (ix2 r c)) (FloatOps.log (F := Ideal) (rowSum (n := 2000) (relu x0) r))
  have hlog : spreadLog (sumOverCols (exp (shiftByMax (relu x0)))) (ix2 r c) = FloatOps.log (F := Ideal) (rowSum (n := 2000) (relu x0) r) :=
    (spread_log_apply _ r c).trans (congrArg (FloatOps.log (F := Ideal)) hsum)
  rw [hlog, hshift c]

end Cert.KernelIdeal.SoftmaxBlock

end
-- ==== Proof.SoftmaxRegion.lean ====
/-
  The third kernel region computes the row-wise logarithm of the softmax of relu(a), where a is the array it is given.

  The grid has 50 points; point t takes rows 2000 t … 2000 t + 1999 of a and writes the same rows of the result. What it
  writes is the row-wise logarithm of the softmax of its rectified block, and that of a row depends on the row only, so
  the block written is the corresponding block of the row-wise logarithm of the softmax of the whole rectified array; the
  50 row blocks cover the 100000 rows.
-/
import proofs.«116660_j15212774162888_1_alg».proof.Proof.Gen.KernelIdeal.Frame
import proofs.«116660_j15212774162888_1_alg».proof.Proof.Spec
import proofs.«116660_j15212774162888_1_alg».proof.Proof.SoftmaxBlock
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.SoftmaxRegion

open Cert.KernelIdeal Cert.KernelIdeal.Gen Cert.Spec Idealize.ShloMosaic.ValueIdx

theorem hz : (![0, 0] : Fin 2 → Nat) = fun _ => 0 := funext fun a => by fin_cases a <;> rfl

/-- The index maps over the grid: point t reads row block t of the input and writes row block t of the result. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

variable (V : (c : Dev nD) → (b : Ref sig .tc) → Buf (Elt Ideal) ((c : Thread nD τ).loc b))

/-- What point t writes back is block t of the row-wise logarithm of the softmax of the rectified array. -/
theorem flushed_eq (c : Dev nD) (t : Fin cfg2.N) :
    (dat2 V c).flushed 1 t
      = ((cfg2.win 1).blk t).view.read (Elt Ideal) (rowLogSoftmax (n := 100000) (relu (V c main_v63))) := by
  show (cfg2.win 1).cut (grid2.coords t) ((dat2 V c).after 1 t) = _
  rw [after2_1]
  unfold out2_1
  rw [View.canon_unit_zero hz]
  simp only [View.ld_unit_zero (S := S2000x40) hz]
  obtain ⟨e0, e1, e2, e3⟩ := idx_facts t
  have hN : cfg2.N = 50 := N_2
  have ht : t.val < 50 := lt_of_lt_of_eq t.isLt hN
  funext j
  show k2_pay1 (iblk2 V c 0 t) j = rowLogSoftmax (n := 100000) (relu (V c main_v63)) (((cfg2.win 1).blk t).view.emb j)
  refine (congrFun (SoftmaxBlock.stored_eq (iblk2 V c 0 t)) j).trans ?_
  obtain ⟨r, c', rfl⟩ : ∃ (r : Fin 2000) (c' : Fin 40), j = ix2 r c' := ⟨j 0, j 1, eq_ix2 j⟩
  have hrow : t.val * 2000 + r.val < 100000 := by have := r.isLt; omega
  have hout : ((cfg2.win 1).blk t).view.emb (ix2 r c') = (ix2 (⟨t.val * 2000 + r.val, hrow⟩ : Fin 100000) c' : S100000x40.Idx) := by
    funext a; apply Fin.ext
    match a with
    | ⟨0, _⟩ => show win2_1.index t (0 : Fin 2) * 2000 + 1 * r.val = t.val * 2000 + r.val; omega
    | ⟨1, _⟩ => show win2_1.index t (1 : Fin 2) * 40 + 1 * c'.val = c'.val; omega
  rw [hout]
  refine rowLogSoftmax_row (n := 100000) (m := 2000) (relu (V c main_v63)) (relu (iblk2 V c 0 t)) ⟨t.val * 2000 + r.val, hrow⟩ r (fun c'' => ?_) c'
  have hin : ((cfg2.win 0).blk t).view.emb (ix2 r c'') = (ix2 (⟨t.val * 2000 + r.val, hrow⟩ : Fin 100000) c'' : S100000x40.Idx) := by
    funext a; apply Fin.ext
    match a with
    | ⟨0, _⟩ => show win2_0.index t (0 : Fin 2) * 2000 + 1 * r.val = t.val * 2000 + r.val; omega
    | ⟨1, _⟩ => show win2_0.index t (1 : Fin 2) * 40 + 1 * c''.val = c''.val; omega
  have rd : iblk2 V c 0 t (ix2 r c'') = V c main_v63 (ix2 (⟨t.val * 2000 + r.val, hrow⟩ : Fin 100000) c'') := by
    show V c main_v63 (((cfg2.win 0).blk t).view.emb (ix2 r c'')) = _
    rw [hin]
  show FloatOps.maximumf (F := Ideal) (iblk2 V c 0 t (ix2 r c'')) (FloatOps.ofBits .f32 0x00000000#32)
     = FloatOps.maximumf (F := Ideal) (V c main_v63 (ix2 (⟨t.val * 2000 + r.val, hrow⟩ : Fin 100000) c'')) (FloatOps.ofBits .f32 0x00000000#32)
  rw [rd]

/-- An index of the result is in point t's block iff each coordinate is in the block's range on its axis. -/
theorem mem_blk (t : Fin cfg2.N) (i : S100000x40.Idx) :
    i ∈ ((cfg2.win 1).blk t).view.set ↔ ∀ a : Fin 2, win2_1.index t a * S2000x40.size a ≤ (i a).val ∧ (i a).val < win2_1.index t a * S2000x40.size a + S2000x40.size a := by
  show i ∈ ((View.whole main_v64).slice (win2_1.rect t)).set ↔ _
  rw [View.set_slice_whole, Rect.mem_set_unit]
  exact Iff.rfl

/-- Every entry of the result lies in some point's block: row r in block r / 2000. -/
theorem cover (i : S100000x40.Idx) : ∃ t : Fin cfg2.N, (cfg2.win 1).flush t = true ∧ i ∈ ((cfg2.win 1).blk t).view.set := by
  have hi0 : (i 0).val < 100000 := (i 0).isLt
  have hi1 : (i 1).val < 40 := (i 1).isLt
  have hN : cfg2.N = 50 := N_2
  have hlt : (i 0).val / 2000 < cfg2.N := by rw [hN]; omega
  obtain ⟨e0, e1, e2, e3⟩ := idx_facts ⟨(i 0).val / 2000, hlt⟩
  refine ⟨⟨(i 0).val / 2000, hlt⟩, flush2_1 _, ?_⟩
  rw [mem_blk]
  intro a
  match a with
  | ⟨0, _⟩ =>
    show win2_1.index ⟨(i 0).val / 2000, hlt⟩ (0 : Fin 2) * 2000 ≤ (i 0).val ∧ (i 0).val < win2_1.index ⟨(i 0).val / 2000, hlt⟩ (0 : Fin 2) * 2000 + 2000
    rw [e2]; show (i 0).val / 2000 * 2000 ≤ (i 0).val ∧ (i 0).val < (i 0).val / 2000 * 2000 + 2000; omega
  | ⟨1, _⟩ =>
    show win2_1.index ⟨(i 0).val / 2000, hlt⟩ (1 : Fin 2) * 40 ≤ (i 1).val ∧ (i 1).val < win2_1.index ⟨(i 0).val / 2000, hlt⟩ (1 : Fin 2) * 40 + 40
    rw [e3]; omega

/-- The result array after the region: the row-wise logarithm of the softmax of the rectified array the region finds. -/
theorem value (c : Dev nD) : (dat2 V c).arrAt 1 cfg2.N = rowLogSoftmax (n := 100000) (relu (V c main_v63)) :=
  (dat2 V c).arrAt_eq_of_cover 1 (rowLogSoftmax (n := 100000) (relu (V c main_v63))) (fun t _ => flushed_eq V c t) cover

end Cert.KernelIdeal.SoftmaxRegion

end
-- ==== Proof.KernelChain.lean ====
/-
  What the idealized kernel's program computes.

  Its result buffer ends at the last boundary's contents. Walking back from there: the third region leaves the row-wise
  logarithm of the softmax of the rectified array it is given, which the second aggregation wrote from the second
  region's product of the rectified first aggregation with the second weights, which in turn was written from the first
  region's product of the features with the first weights; the index vectors and the edge weights come from the prefix.
  A region leaves alone every buffer that is not one of its arrays, and a stretch of host operations every buffer it
  does not write, so the values each step reads are the ones the earlier steps left. Composed, the result is the network's
  value at the launch arguments.
-/
import proofs.«116660_j15212774162888_1_alg».proof.Proof.Gen.KernelIdeal.Frame
import proofs.«116660_j15212774162888_1_alg».proof.Proof.Spec
import proofs.«116660_j15212774162888_1_alg».proof.Proof.FirstProduct
import proofs.«116660_j15212774162888_1_alg».proof.Proof.SecondProduct
import proofs.«116660_j15212774162888_1_alg».proof.Proof.SoftmaxRegion
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.Spec

/-! ## What the host stretches leave alone -/

set_option maxHeartbeats 8000000 in
/-- The prefix writes no argument. -/
theorem prefix_keeps (W : Valuation τ sig (Elt Ideal)) :
    StableHlo.after (hostOps0_2 (F := Ideal)) (StableHlo.after (hostOps0_1 (F := Ideal)) (StableHlo.after (hostOps0 (F := Ideal)) W)) (Proc.devRef .tc main_arg0) = W (Proc.devRef .tc main_arg0)
      ∧ StableHlo.after (hostOps0_2 (F := Ideal)) (StableHlo.after (hostOps0_1 (F := Ideal)) (StableHlo.after (hostOps0 (F := Ideal)) W)) (Proc.devRef .tc main_arg2) = W (Proc.devRef .tc main_arg2)
      ∧ StableHlo.after (hostOps0_2 (F := Ideal)) (StableHlo.after (hostOps0_1 (F := Ideal)) (StableHlo.after (hostOps0 (F := Ideal)) W)) (Proc.devRef .tc main_arg3) = W (Proc.devRef .tc main_arg3)
      ∧ StableHlo.after (hostOps0_2 (F := Ideal)) (StableHlo.after (hostOps0_1 (F := Ideal)) (StableHlo.after (hostOps0 (F := Ideal)) W)) (Proc.devRef .tc main_arg4) = W (Proc.devRef .tc main_arg4)
      ∧ StableHlo.after (hostOps0_2 (F := Ideal)) (StableHlo.after (hostOps0_1 (F := Ideal)) (StableHlo.after (hostOps0 (F := Ideal)) W)) (Proc.devRef .tc main_arg5) = W (Proc.devRef .tc main_arg5) := by
  refine ⟨?_, ?_, ?_, ?_, ?_⟩ <;> (dsimp only [hostOps0, hostOps0_1, hostOps0_2]; after_results_simp)

set_option maxHeartbeats 4000000 in
/-- The first aggregation writes neither the edge weights, the index vectors, nor the later arguments. -/
theorem agg1_keeps (W : Valuation τ sig (Elt Ideal)) :
    StableHlo.after (hostOps1 (F := Ideal)) W (Proc.devRef .tc main_v29) = W (Proc.devRef .tc main_v29)
      ∧ StableHlo.after (hostOps1 (F := Ideal)) W (Proc.devRef .tc main_v3) = W (Proc.devRef .tc main_v3)
      ∧ StableHlo.after (hostOps1 (F := Ideal)) W (Proc.devRef .tc main_v6) = W (Proc.devRef .tc main_v6)
      ∧ StableHlo.after (hostOps1 (F := Ideal)) W (Proc.devRef .tc main_arg4) = W (Proc.devRef .tc main_arg4)
      ∧ StableHlo.after (hostOps1 (F := Ideal)) W (Proc.devRef .tc main_arg5) = W (Proc.devRef .tc main_arg5) := by
  refine ⟨?_, ?_, ?_, ?_, ?_⟩ <;> (dsimp only [hostOps1]; after_results_simp)

/-! ## The composition -/

section Composed

variable (Src Dst : (⟨S2x1600000, .i32⟩ : BufTy).Contents (Elt Ideal) → (⟨S1700000, .i32⟩ : BufTy).Contents (Elt Ideal))
    (Nrm : (⟨S2x1600000, .i32⟩ : BufTy).Contents (Elt Ideal) → (⟨S1700000, .f32⟩ : BufTy).Contents (Elt Ideal))
    (A1 : (⟨S1700000, .f32⟩ : BufTy).Contents (Elt Ideal) → (⟨S1700000, .i32⟩ : BufTy).Contents (Elt Ideal) → (⟨S1700000, .i32⟩ : BufTy).Contents (Elt Ideal) → (⟨S100000x64, .f32⟩ : BufTy).Contents (Elt Ideal) → (⟨S64, .f32⟩ : BufTy).Contents (Elt Ideal) → (⟨S100000x64, .f32⟩ : BufTy).Contents (Elt Ideal))
    (A2 : (⟨S1700000, .f32⟩ : BufTy).Contents (Elt Ideal) → (⟨S1700000, .i32⟩ : BufTy).Contents (Elt Ideal) → (⟨S1700000, .i32⟩ : BufTy).Contents (Elt Ideal) → (⟨S100000x40, .f32⟩ : BufTy).Contents (Elt Ideal) → (⟨S40, .f32⟩ : BufTy).Contents (Elt Ideal) → (⟨S100000x40, .f32⟩ : BufTy).Contents (Elt Ideal))
    (hSrc : ∀ W : Valuation τ sig (Elt Ideal), StableHlo.after (hostOps0_2 (F := Ideal)) (StableHlo.after (hostOps0_1 (F := Ideal)) (StableHlo.after (hostOps0 (F := Ideal)) W)) (Proc.devRef .tc main_v3) = Src (W (Proc.devRef .tc main_arg1)))
    (hDst : ∀ W : Valuation τ sig (Elt Ideal), StableHlo.after (hostOps0_2 (F := Ideal)) (StableHlo.after (hostOps0_1 (F := Ideal)) (StableHlo.after (hostOps0 (F := Ideal)) W)) (Proc.devRef .tc main_v6) = Dst (W (Proc.devRef .tc main_arg1)))
    (hNrm : ∀ W : Valuation τ sig (Elt Ideal), StableHlo.after (hostOps0_2 (F := Ideal)) (StableHlo.after (hostOps0_1 (F := Ideal)) (StableHlo.after (hostOps0 (F := Ideal)) W)) (Proc.devRef .tc main_v29) = Nrm (W (Proc.devRef .tc main_arg1)))
    (hA1 : ∀ W : Valuation τ sig (Elt Ideal), StableHlo.after (hostOps1 (F := Ideal)) W (Proc.devRef .tc main_v46)
      = A1 (W (Proc.devRef .tc main_v29)) (W (Proc.devRef .tc main_v3)) (W (Proc.devRef .tc main_v6)) (W (Proc.devRef .tc main_v30)) (W (Proc.devRef .tc main_arg3)))
    (hA2 : ∀ W : Valuation τ sig (Elt Ideal), StableHlo.after (hostOps2 (F := Ideal)) W (Proc.devRef .tc main_v63)
      = A2 (W (Proc.devRef .tc main_v29)) (W (Proc.devRef .tc main_v3)) (W (Proc.devRef .tc main_v6)) (W (Proc.devRef .tc main_v47)) (W (Proc.devRef .tc main_arg5)))
variable (m : (ℓ : Loc nD τ sig) → Buf (Elt Ideal) ℓ) (ρ : Dev nD → PrngReg)

include hSrc hDst hNrm hA1 hA2 in
/-- The result buffer's contents at the last boundary: the network's value at the launch arguments. -/
theorem value (c : Dev nD) :
    W8 m ρ c (Proc.devRef .tc main_v64)
      = network Src Dst Nrm A1 A2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e8 : W8 m ρ c (Proc.devRef .tc main_v64) = rowLogSoftmax (n := 100000) (relu (W7 m ρ c (Proc.devRef .tc main_v63))) :=
    (W8_arr m ρ c 1).trans (SoftmaxRegion.value (V7 m ρ) c)
  have e7 : W7 m ρ c (Proc.devRef .tc main_v63) = A2 (W6 m ρ c (Proc.devRef .tc main_v29)) (W6 m ρ c (Proc.devRef .tc main_v3)) (W6 m ρ c (Proc.devRef .tc main_v6)) (W6 m ρ c (Proc.devRef .tc main_v47)) (W6 m ρ c (Proc.devRef .tc main_arg5)) :=
    hA2 (W6 m ρ c)
  have e6 : W6 m ρ c (Proc.devRef .tc main_v47) = prod2 (relu (W5 m ρ c (Proc.devRef .tc main_v46))) (W5 m ρ c (Proc.devRef .tc main_arg4)) :=
    (W6_arr m ρ c 2).trans (SecondProduct.value (V5 m ρ) c)
  have k6_v29 : W6 m ρ c (Proc.devRef .tc main_v29) = W5 m ρ c (Proc.devRef .tc main_v29) := W6_of_ne m ρ c main_v29 (by decide)
  have k6_v3 : W6 m ρ c (Proc.devRef .tc main_v3) = W5 m ρ c (Proc.devRef .tc main_v3) := W6_of_ne m ρ c main_v3 (by decide)
  have k6_v6 : W6 m ρ c (Proc.devRef .tc main_v6) = W5 m ρ c (Proc.devRef .tc main_v6) := W6_of_ne m ρ c main_v6 (by decide)
  have k6_arg5 : W6 m ρ c (Proc.devRef .tc main_arg5) = W5 m ρ c (Proc.devRef .tc main_arg5) := W6_of_ne m ρ c main_arg5 (by decide)
  have e5 : W5 m ρ c (Proc.devRef .tc main_v46) = A1 (W4 m ρ c (Proc.devRef .tc main_v29)) (W4 m ρ c (Proc.devRef .tc main_v3)) (W4 m ρ c (Proc.devRef .tc main_v6)) (W4 m ρ c (Proc.devRef .tc main_v30)) (W4 m ρ c (Proc.devRef .tc main_arg3)) :=
    hA1 (W4 m ρ c)
  have k5_v29 : W5 m ρ c (Proc.devRef .tc main_v29) = W4 m ρ c (Proc.devRef .tc main_v29) := (agg1_keeps (W4 m ρ c)).1
  have k5_v3 : W5 m ρ c (Proc.devRef .tc main_v3) = W4 m ρ c (Proc.devRef .tc main_v3) := (agg1_keeps (W4 m ρ c)).2.1
  have k5_v6 : W5 m ρ c (Proc.devRef .tc main_v6) = W4 m ρ c (Proc.devRef .tc main_v6) := (agg1_keeps (W4 m ρ c)).2.2.1
  have k5_arg4 : W5 m ρ c (Proc.devRef .tc main_arg4) = W4 m ρ c (Proc.devRef .tc main_arg4) := (agg1_keeps (W4 m ρ c)).2.2.2.1
  have k5_arg5 : W5 m ρ c (Proc.devRef .tc main_arg5) = W4 m ρ c (Proc.devRef .tc main_arg5) := (agg1_keeps (W4 m ρ c)).2.2.2.2
  have e4 : W4 m ρ c (Proc.devRef .tc main_v30) = prod1 (W3 m ρ c (Proc.devRef .tc main_arg0)) (W3 m ρ c (Proc.devRef .tc main_arg2)) :=
    (W4_arr m ρ c 2).trans (FirstProduct.value (V3 m ρ) c)
  have k4_v29 : W4 m ρ c (Proc.devRef .tc main_v29) = W3 m ρ c (Proc.devRef .tc main_v29) := W4_of_ne m ρ c main_v29 (by decide)
  have k4_v3 : W4 m ρ c (Proc.devRef .tc main_v3) = W3 m ρ c (Proc.devRef .tc main_v3) := W4_of_ne m ρ c main_v3 (by decide)
  have k4_v6 : W4 m ρ c (Proc.devRef .tc main_v6) = W3 m ρ c (Proc.devRef .tc main_v6) := W4_of_ne m ρ c main_v6 (by decide)
  have k4_arg3 : W4 m ρ c (Proc.devRef .tc main_arg3) = W3 m ρ c (Proc.devRef .tc main_arg3) := W4_of_ne m ρ c main_arg3 (by decide)
  have k4_arg4 : W4 m ρ c (Proc.devRef .tc main_arg4) = W3 m ρ c (Proc.devRef .tc main_arg4) := W4_of_ne m ρ c main_arg4 (by decide)
  have k4_arg5 : W4 m ρ c (Proc.devRef .tc main_arg5) = W3 m ρ c (Proc.devRef .tc main_arg5) := W4_of_ne m ρ c main_arg5 (by decide)
  have e3_v29 : W3 m ρ c (Proc.devRef .tc main_v29) = Nrm (W0 m ρ c (Proc.devRef .tc main_arg1)) := hNrm (W0 m ρ c)
  have e3_v3 : W3 m ρ c (Proc.devRef .tc main_v3) = Src (W0 m ρ c (Proc.devRef .tc main_arg1)) := hSrc (W0 m ρ c)
  have e3_v6 : W3 m ρ c (Proc.devRef .tc main_v6) = Dst (W0 m ρ c (Proc.devRef .tc main_arg1)) := hDst (W0 m ρ c)
  obtain ⟨k3_arg0, k3_arg2, k3_arg3, k3_arg4, k3_arg5⟩ := prefix_keeps (W0 m ρ c)
  rw [e8, e7, e6, k6_v29, k6_v3, k6_v6, k6_arg5, e5, k5_v29, k5_v3, k5_v6, k5_arg4, k5_arg5, e4,
    k4_v29, k4_v3, k4_v6, k4_arg3, k4_arg4, k4_arg5, e3_v29, e3_v3, e3_v6]
  show rowLogSoftmax (n := 100000) (relu (A2 _ _ _ (prod2 (relu (A1 _ _ _ (prod1 (W3 m ρ c (Proc.devRef .tc main_arg0)) (W3 m ρ c (Proc.devRef .tc main_arg2))) (W3 m ρ c (Proc.devRef .tc main_arg3)))) (W3 m ρ c (Proc.devRef .tc main_arg4))) (W3 m ρ c (Proc.devRef .tc main_arg5)))) = _
  rw [show W3 m ρ c (Proc.devRef .tc main_arg0) = W0 m ρ c (Proc.devRef .tc main_arg0) from k3_arg0, show W3 m ρ c (Proc.devRef .tc main_arg2) = W0 m ρ c (Proc.devRef .tc main_arg2) from k3_arg2,
    show W3 m ρ c (Proc.devRef .tc main_arg3) = W0 m ρ c (Proc.devRef .tc main_arg3) from k3_arg3, show W3 m ρ c (Proc.devRef .tc main_arg4) = W0 m ρ c (Proc.devRef .tc main_arg4) from k3_arg4,
    show W3 m ρ c (Proc.devRef .tc main_arg5) = W0 m ρ c (Proc.devRef .tc main_arg5) from k3_arg5]
  rfl

end Composed

end Cert.KernelIdeal.Chain

end
-- ==== Proof.RefProducts.lean ====
/-
  The reference's two matrix products are the products of the specification.

  On the host a product is one `dot_general` of the whole arrays; read at an entry on the extended reals it is the sum
  over the shared axis of the products of the factors' entries, which is how the specification states a product. Before
  the second product the reference rectifies its left factor entry by entry, against a zero spread over the whole array:
  at each entry that is the larger of the entry and zero.
-/
import proofs.«116660_j15212774162888_1_alg».proof.ReferenceIdeal
import proofs.«116660_j15212774162888_1_alg».proof.Proof.Gen.ReferenceIdeal
import proofs.«116660_j15212774162888_1_alg».proof.Proof.Spec
import Idealize.ShloMosaic.Lib.ValueIdx
import Idealize.ShloMosaic.PureOps.Ideal.Laws

noncomputable section

open Idealize.ShloMosaic

namespace Cert.ReferenceIdeal.Products

open Cert.ReferenceIdeal Cert.ReferenceIdeal.Gen Cert.Spec

/-- The contraction of the whole 100000 × 500 array with the 500 × 64 weights. -/
abbrev D1 := dot_S100000x500_S500x64_S100000x64_1_0_0_1_n_n

theorem lhs_row1 (i : S100000x64.Idx) (q : D1.contr.Idx) : (D1.lhsIdx i q 0).val = (i 0).val := by
  unfold DotDims.lhsIdx
  rw [dif_neg (show ¬(0 : Fin S100000x500.rank) ∈ D1.lhsBatch by decide), dif_pos (show (0 : Fin S100000x500.rank) ∈ D1.lhsNonContracting by decide)]
  rfl
theorem lhs_shared1 (i : S100000x64.Idx) (q : D1.contr.Idx) : (D1.lhsIdx i q 1).val = (q ⟨0, by decide⟩).val :=
  D1.lhsIdx_val_of_single rfl i q
theorem rhs_shared1 (i : S100000x64.Idx) (q : D1.contr.Idx) : (D1.rhsIdx i q 0).val = (q ⟨0, by decide⟩).val :=
  D1.rhsIdx_val_of_single rfl i q
theorem rhs_col1 (i : S100000x64.Idx) (q : D1.contr.Idx) : (D1.rhsIdx i q 1).val = (i 1).val := by
  unfold DotDims.rhsIdx
  rw [dif_neg (show ¬(1 : Fin S500x64.rank) ∈ D1.rhsBatch by decide), dif_pos (show (1 : Fin S500x64.rank) ∈ D1.rhsNonContracting by decide)]
  rfl

/-- The host's product read at an entry: the sum over the shared axis, with no accumulator. -/
theorem dot1_apply (x : (⟨S100000x500, .f32⟩ : BufTy).Contents (Elt Ideal)) (w : (⟨S500x64, .f32⟩ : BufTy).Contents (Elt Ideal)) (i : S100000x64.Idx) :
    Host.dotGeneral (F := Ideal) (φ₁ := .f32) (φ₂ := .f32) D1 none x w i = ∑ k : Fin 500, x (leftAt1 i k) * w (rightAt1 i k) := by
  simp only [Host.dotGeneral]
  rw [Ideal.dotGeneral_apply, ← Equiv.sum_comp (ValueIdx.contrEquiv1 D1 500 rfl rfl).symm]
  refine Finset.sum_congr rfl fun k _ => ?_
  have hk := ValueIdx.contrEquiv1_symm_val D1 500 rfl rfl k
  have el : D1.lhsIdx i ((ValueIdx.contrEquiv1 D1 500 rfl rfl).symm k) = leftAt1 i k := funext fun a => Fin.ext (by
    match a with
    | ⟨0, _⟩ => exact lhs_row1 _ _
    | ⟨1, _⟩ => exact (lhs_shared1 _ _).trans hk)
  have er : D1.rhsIdx i ((ValueIdx.contrEquiv1 D1 500 rfl rfl).symm k) = rightAt1 i k := funext fun a => Fin.ext (by
    match a with
    | ⟨0, _⟩ => exact (rhs_shared1 _ _).trans hk
    | ⟨1, _⟩ => exact rhs_col1 _ _)
  rw [el, er]

/-- The contraction of the whole 100000 × 64 array with the 64 × 40 weights. -/
abbrev D2 := dot_S100000x64_S64x40_S100000x40_1_0_0_1_n_n

theorem lhs_row2 (i : S100000x40.Idx) (q : D2.contr.Idx) : (D2.lhsIdx i q 0).val = (i 0).val := by
  unfold DotDims.lhsIdx
  rw [dif_neg (show ¬(0 : Fin S100000x64.rank) ∈ D2.lhsBatch by decide), dif_pos (show (0 : Fin S100000x64.rank) ∈ D2.lhsNonContracting by decide)]
  rfl
theorem lhs_shared2 (i : S100000x40.Idx) (q : D2.contr.Idx) : (D2.lhsIdx i q 1).val = (q ⟨0, by decide⟩).val :=
  D2.lhsIdx_val_of_single rfl i q
theorem rhs_shared2 (i : S100000x40.Idx) (q : D2.contr.Idx) : (D2.rhsIdx i q 0).val = (q ⟨0, by decide⟩).val :=
  D2.rhsIdx_val_of_single rfl i q
theorem rhs_col2 (i : S100000x40.Idx) (q : D2.contr.Idx) : (D2.rhsIdx i q 1).val = (i 1).val := by
  unfold DotDims.rhsIdx
  rw [dif_neg (show ¬(1 : Fin S64x40.rank) ∈ D2.rhsBatch by decide), dif_pos (show (1 : Fin S64x40.rank) ∈ D2.rhsNonContracting by decide)]
  rfl

/-- The host's product read at an entry: the sum over the shared axis, with no accumulator. -/
theorem dot2_apply (x : (⟨S100000x64, .f32⟩ : BufTy).Contents (Elt Ideal)) (w : (⟨S64x40, .f32⟩ : BufTy).Contents (Elt Ideal)) (i : S100000x40.Idx) :
    Host.dotGeneral (F := Ideal) (φ₁ := .f32) (φ₂ := .f32) D2 none x w i = ∑ k : Fin 64, x (leftAt2 i k) * w (rightAt2 i k) := by
  simp only [Host.dotGeneral]
  rw [Ideal.dotGeneral_apply, ← Equiv.sum_comp (ValueIdx.contrEquiv1 D2 64 rfl rfl).symm]
  refine Finset.sum_congr rfl fun k _ => ?_
  have hk := ValueIdx.contrEquiv1_symm_val D2 64 rfl rfl k
  have el : D2.lhsIdx i ((ValueIdx.contrEquiv1 D2 64 rfl rfl).symm k) = leftAt2 i k := funext fun a => Fin.ext (by
    match a with
    | ⟨0, _⟩ => exact lhs_row2 _ _
    | ⟨1, _⟩ => exact (lhs_shared2 _ _).trans hk)
  have er : D2.rhsIdx i ((ValueIdx.contrEquiv1 D2 64 rfl rfl).symm k) = rightAt2 i k := funext fun a => Fin.ext (by
    match a with
    | ⟨0, _⟩ => exact (rhs_shared2 _ _).trans hk
    | ⟨1, _⟩ => exact rhs_col2 _ _)
  rw [el, er]

/-- The first product of the reference is the specification's. -/
theorem dot1_eq (x : (⟨S100000x500, .f32⟩ : BufTy).Contents (Elt Ideal)) (w : (⟨S500x64, .f32⟩ : BufTy).Contents (Elt Ideal)) :
    Host.dotGeneral (F := Ideal) (φ₁ := .f32) (φ₂ := .f32) D1 none x w = prod1 x w :=
  funext fun i => dot1_apply x w i

/-- The reference's rectifier — the larger, entry by entry, of the array and a zero spread over it — is the specification's. -/
theorem relu64_eq (a : (⟨S100000x64, .f32⟩ : BufTy).Contents (Elt Ideal)) :
    maximumf a (broadcastInDim S100000x64 ![] bcast_S_S100000x64 (constant (F := Ideal) S_ .f32 0x00000000#32)) = relu a := rfl

/-- The second product of the reference, of the rectified array, is the specification's. -/
theorem dot2_eq (a : (⟨S100000x64, .f32⟩ : BufTy).Contents (Elt Ideal)) (w : (⟨S64x40, .f32⟩ : BufTy).Contents (Elt Ideal)) :
    Host.dotGeneral (F := Ideal) (φ₁ := .f32) (φ₂ := .f32) D2 none
        (maximumf a (broadcastInDim S100000x64 ![] bcast_S_S100000x64 (constant (F := Ideal) S_ .f32 0x00000000#32))) w
      = prod2 (relu a) w := by
  rw [relu64_eq]
  exact funext fun i => dot2_apply (relu a) w i

end Cert.ReferenceIdeal.Products

end
-- ==== Proof.RefSoftmax.lean ====
/-
  The reference's last step — the rectifier, then the logarithm of the softmax as jax writes it — is the row-wise
  logarithm of the softmax of the rectified array.

  jax takes each row's largest entry by a reduction from −∞, takes the larger of that and −∞ once more, spreads it back
  over the row ([100000] to [100000, 1] to [100000, 40]) and subtracts; then it takes each row's sum of exponentials by a
  reduction from zero, spreads it to a column, takes the logarithm, spreads that over the row and subtracts again. The
  second comparison with −∞ changes nothing: a fold of `max` that starts from −∞ is at least −∞. A reduction from zero is
  zero plus the sum. So, entry by entry, the result is the specification's.
-/
import proofs.«116660_j15212774162888_1_alg».proof.ReferenceIdeal
import proofs.«116660_j15212774162888_1_alg».proof.Proof.Gen.ReferenceIdeal
import proofs.«116660_j15212774162888_1_alg».proof.Proof.Spec
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

open Idealize.ShloMosaic

namespace Cert.ReferenceIdeal.Softmax

open Cert.ReferenceIdeal Cert.ReferenceIdeal.Gen Cert.Spec Idealize.ShloMosaic.ValueIdx

/-- Dropping the column axis of a 100000 × 40 array leaves the 100000 rows (the fact that names the inserted index). -/
theorem hred : S100000x40.Reduces [1] S100000 := by decide

/-- Over the columns, the source index above row r with column k is (r, k). -/
theorem lift_eq (r : Fin 100000) (k : Fin 40) : hred.lift (ix1 r) k = ix2 r k :=
  funext fun a => Fin.ext (by
    match a with
    | ⟨0, _⟩ => rfl
    | ⟨1, _⟩ => rfl)

/-- A vector over the rows spread to a column and then over the 40 columns holds, at (r, c), the vector's value at r. -/
theorem spread_apply (v : FVec Ideal S100000 .f32) (r : Fin 100000) (c : Fin 40) :
    broadcastInDim S100000x40 ![0, 1] bcast_S100000x1_S100000x40_0_1 (broadcastInDim S100000x1 ![0] bcast_S100000_S100000x1_0 v) (ix2 r c)
      = v (ix1 r) := by
  refine (broadcastInDim_apply _ _ _ (ix2 r c) (ix2 r (0 : Fin 1)) ?_).trans (broadcastInDim_apply _ _ v (ix2 r (0 : Fin 1)) (ix1 r) ?_)
  · intro a
    match a with
    | ⟨0, _⟩ => show r.val = if (100000 : Nat) = 1 then 0 else r.val; rw [if_neg (by decide)]
    | ⟨1, _⟩ => show (0 : Nat) = if (1 : Nat) = 1 then 0 else c.val; rw [if_pos rfl]
  · intro a
    match a with
    | ⟨0, _⟩ => show r.val = if (100000 : Nat) = 1 then 0 else r.val; rw [if_neg (by decide)]

/-- The same with the logarithm taken of the column before it is spread over the row. -/
theorem spread_log_apply (v : FVec Ideal S100000 .f32) (r : Fin 100000) (c : Fin 40) :
    broadcastInDim S100000x40 ![0, 1] bcast_S100000x1_S100000x40_0_1 (Host.log (broadcastInDim S100000x1 ![0] bcast_S100000_S100000x1_0 v)) (ix2 r c)
      = FloatOps.log (F := Ideal) (v (ix1 r)) := by
  refine (broadcastInDim_apply _ _ _ (ix2 r c) (ix2 r (0 : Fin 1)) ?_).trans ?_
  · intro a
    match a with
    | ⟨0, _⟩ => show r.val = if (100000 : Nat) = 1 then 0 else r.val; rw [if_neg (by decide)]
    | ⟨1, _⟩ => show (0 : Nat) = if (1 : Nat) = 1 then 0 else c.val; rw [if_pos rfl]
  · show FloatOps.log (F := Ideal) (broadcastInDim S100000x1 ![0] bcast_S100000_S100000x1_0 v (ix2 r (0 : Fin 1))) = _
    refine congrArg (FloatOps.log (F := Ideal)) (broadcastInDim_apply _ _ v (ix2 r (0 : Fin 1)) (ix1 r) ?_)
    intro a
    match a with
    | ⟨0, _⟩ => show r.val = if (100000 : Nat) = 1 then 0 else r.val; rw [if_neg (by decide)]

/-- A fold of `max` from b is at least b, so taking the larger of b and the fold once more changes nothing. -/
theorem max_fold_self (b : Ideal .f32) (f : Fin 40 → Ideal .f32) :
    FloatOps.maximumf (F := Ideal) b ((Finset.univ : Finset (Fin 40)).fold (FloatOps.maximumf (F := Ideal)) b f)
      = (Finset.univ : Finset (Fin 40)).fold (FloatOps.maximumf (F := Ideal)) b f := by
  show max b ((Finset.univ : Finset (Fin 40)).fold max b f) = (Finset.univ : Finset (Fin 40)).fold max b f
  exact max_eq_right ((Finset.le_fold_max b).mpr (Or.inl le_rfl))

/-! The reference's steps, named. -/

/-- Each row's largest entry by the host's reduction from −∞. -/
abbrev maxOverCols (y : FVec Ideal S100000x40 .f32) : FVec Ideal S100000 .f32 :=
  Host.reduce (FloatOps.maximumf (F := Ideal)) y (constant (F := Ideal) S_ .f32 0xFF800000#32) reducesTo_S100000x40_S100000_d1 h_S_
/-- … and the larger of that and −∞ once more. -/
abbrev maxAgain (y : FVec Ideal S100000x40 .f32) : FVec Ideal S100000 .f32 :=
  maximumf (broadcastInDim S100000 ![] bcast_S_S100000 (constant (F := Ideal) S_ .f32 0xFF800000#32)) (maxOverCols y)
/-- A vector over the rows spread over the 40 columns. -/
abbrev spread (v : FVec Ideal S100000 .f32) : FVec Ideal S100000x40 .f32 :=
  broadcastInDim S100000x40 ![0, 1] bcast_S100000x1_S100000x40_0_1 (broadcastInDim S100000x1 ![0] bcast_S100000_S100000x1_0 v)
/-- Each entry less its row's largest entry. -/
abbrev shiftByMax (y : FVec Ideal S100000x40 .f32) : FVec Ideal S100000x40 .f32 := subf y (spread (maxAgain y))
/-- Each row's sum by the host's reduction from zero. -/
abbrev sumOverCols (z : FVec Ideal S100000x40 .f32) : FVec Ideal S100000 .f32 :=
  Host.reduceAdd z (constant (F := Ideal) S_ .f32 0x00000000#32) reducesTo_S100000x40_S100000_d1 h_S_
/-- The logarithm of a vector over the rows, taken on the column, spread over the 40 columns. -/
abbrev spreadLog (v : FVec Ideal S100000 .f32) : FVec Ideal S100000x40 .f32 :=
  broadcastInDim S100000x40 ![0, 1] bcast_S100000x1_S100000x40_0_1 (Host.log (broadcastInDim S100000x1 ![0] bcast_S100000_S100000x1_0 v))

/-- The reference's last step as it writes it: the rectifier (against a zero spread over the array), then the steps above. -/
def tail (a : (⟨S100000x40, .f32⟩ : BufTy).Contents (Elt Ideal)) : (⟨S100000x40, .f32⟩ : BufTy).Contents (Elt Ideal) :=
  subf (shiftByMax (maximumf a (broadcastInDim S100000x40 ![] bcast_S_S100000x40 (constant (F := Ideal) S_ .f32 0x00000000#32))))
    (spreadLog (sumOverCols (Host.exp (shiftByMax (maximumf a (broadcastInDim S100000x40 ![] bcast_S_S100000x40 (constant (F := Ideal) S_ .f32 0x00000000#32)))))))

/-- The reference's rectifier is the specification's. -/
theorem relu40_eq (a : (⟨S100000x40, .f32⟩ : BufTy).Contents (Elt Ideal)) :
    maximumf a (broadcastInDim S100000x40 ![] bcast_S_S100000x40 (constant (F := Ideal) S_ .f32 0x00000000#32)) = relu a := rfl

/-- Over the columns, whatever witnesses the shapes' relation: the source index above row r with column k is (r, k). -/
theorem lift_eq' (h : S100000x40.Reduces [1] S100000) (r : Fin 100000) (k : Fin 40) : h.lift (ix1 r) k = ix2 r k :=
  funext fun a => Fin.ext (by
    match a with
    | ⟨0, _⟩ => rfl
    | ⟨1, _⟩ => rfl)

/-- The host's reduction by `max`, at r: the largest entry of row r. It holds for any initial array whose first entry is −∞
    and for any witnesses of the shapes' relation. -/
theorem rowmax_gen (y : FVec Ideal S100000x40 .f32) (init : S_.Idx → Ideal .f32) (h' : S100000x40.ReducesTo [1] S100000)
    (h : S100000x40.Reduces [1] S100000) (hu : 0 < S_.numel) (hinit : init (Shape.Idx.first hu) = FloatOps.ofBits .f32 0xFF800000#32)
    (r : Fin 100000) :
    Host.reduce (FloatOps.maximumf (F := Ideal)) y init h' hu (ix1 r) = rowMax (n := 100000) y r := by
  rw [Host.reduce_eq_fold_single (FloatOps.maximumf (F := Ideal)) y init h' h hu, hinit]
  unfold rowMax
  exact congrArg (fun f : Fin 40 → Ideal .f32 => (Finset.univ : Finset (Fin 40)).fold (FloatOps.maximumf (F := Ideal)) (FloatOps.ofBits .f32 0xFF800000#32) f)
    (funext fun k => congrArg y (lift_eq' h r k))

theorem rowmax_apply (y : FVec Ideal S100000x40 .f32) (r : Fin 100000) : maxOverCols y (ix1 r) = rowMax (n := 100000) y r :=
  rowmax_gen y _ reducesTo_S100000x40_S100000_d1 hred h_S_ rfl r

/-- The larger, entry by entry, of −∞ spread over the rows and a vector over the rows: at r, the larger of −∞ and the
    vector's value at r. -/
theorem maxwith_apply (v : FVec Ideal S100000 .f32) (r : Fin 100000) :
    maximumf (broadcastInDim S100000 ![] bcast_S_S100000 (constant (F := Ideal) S_ .f32 0xFF800000#32)) v (ix1 r)
      = FloatOps.maximumf (F := Ideal) (FloatOps.ofBits .f32 0xFF800000#32) (v (ix1 r)) := rfl

/-- … so taking the larger of the row's largest entry and −∞ again leaves it. -/
theorem maxagain_apply (y : FVec Ideal S100000x40 .f32) (r : Fin 100000) : maxAgain y (ix1 r) = rowMax (n := 100000) y r :=
  (maxwith_apply (maxOverCols y) r).trans ((congrArg (FloatOps.maximumf (F := Ideal) (FloatOps.ofBits .f32 0xFF800000#32)) (rowmax_apply y r)).trans
    (max_fold_self _ _))

/-- The host's reduction by addition from zero, at r: the sum of row r. (Again for any witnesses of the shapes' relation.) -/
theorem rowsum_gen (z : FVec Ideal S100000x40 .f32) (h' : S100000x40.ReducesTo [1] S100000) (h : S100000x40.Reduces [1] S100000)
    (hu : 0 < S_.numel) (r : Fin 100000) :
    Host.reduceAdd z (constant (F := Ideal) S_ .f32 0x00000000#32) h' hu (ix1 r) = ∑ c : Fin 40, z (ix2 r c) := by
  rw [hostReduceAdd_apply, Ideal.hostReduceAdd_single h' h]
  show Ideal.ofBits .f32 0x00000000#32 + _ = _
  rw [Ideal.ofBits_zero_f32, zero_add]
  exact Finset.sum_congr rfl fun k _ => congrArg z (lift_eq' h r k)

theorem rowsum_apply (z : FVec Ideal S100000x40 .f32) (r : Fin 100000) : sumOverCols z (ix1 r) = ∑ c : Fin 40, z (ix2 r c) :=
  rowsum_gen z reducesTo_S100000x40_S100000_d1 hred h_S_ r

/-- The steps after the row maxima, for ANY vector M over the rows that holds each row's largest entry: subtracting
    the larger of −∞ and M, then the logarithm of the row sums of exponentials, gives the row-wise logarithm of the softmax. -/
theorem steps_of_rowmax (y : (⟨S100000x40, .f32⟩ : BufTy).Contents (Elt Ideal)) (M : FVec Ideal S100000 .f32)
    (hM : ∀ r : Fin 100000, M (ix1 r) = rowMax (n := 100000) y r) :
    subf (subf y (spread (maximumf (broadcastInDim S100000 ![] bcast_S_S100000 (constant (F := Ideal) S_ .f32 0xFF800000#32)) M)))
        (spreadLog (sumOverCols (Host.exp (subf y (spread (maximumf (broadcastInDim S100000 ![] bcast_S_S100000 (constant (F := Ideal) S_ .f32 0xFF800000#32)) M))))))
      = rowLogSoftmax (n := 100000) y := by
  funext j
  obtain ⟨r, c, rfl⟩ : ∃ (r : Fin 100000) (c : Fin 40), j = ix2 r c := ⟨j 0, j 1, eq_ix2 j⟩
  have hmax : ∀ r' : Fin 100000, maximumf (broadcastInDim S100000 ![] bcast_S_S100000 (constant (F := Ideal) S_ .f32 0xFF800000#32)) M (ix1 r') = rowMax (n := 100000) y r' := fun r' =>
    (maxwith_apply M r').trans ((congrArg (FloatOps.maximumf (F := Ideal) (FloatOps.ofBits .f32 0xFF800000#32)) (hM r')).trans (max_fold_self _ _))
  have hshift : ∀ c' : Fin 40, subf y (spread (maximumf (broadcastInDim S100000 ![] bcast_S_S100000 (constant (F := Ideal) S_ .f32 0xFF800000#32)) M)) (ix2 r c')
      = rowShift (n := 100000) y (ix2 r c') := fun c' => by
    show FloatOps.subf (F := Ideal) (y (ix2 r c')) (spread (maximumf (broadcastInDim S100000 ![] bcast_S_S100000 (constant (F := Ideal) S_ .f32 0xFF800000#32)) M) (ix2 r c'))
       = FloatOps.subf (F := Ideal) (y (ix2 r c')) (rowMax (n := 100000) y r)
    exact congrArg (FloatOps.subf (F := Ideal) (y (ix2 r c'))) ((spread_apply _ r c').trans (hmax r))
  have hsum : sumOverCols (Host.exp (subf y (spread (maximumf (broadcastInDim S100000 ![] bcast_S_S100000 (constant (F := Ideal) S_ .f32 0xFF800000#32)) M)))) (ix1 r)
      = rowSum (n := 100000) y r := by
    refine (rowsum_apply _ r).trans ?_
    unfold rowSum
    exact Finset.sum_congr rfl fun c' _ => congrArg (FloatOps.exp (F := Ideal)) (hshift c')
  show FloatOps.subf (F := Ideal) (subf y (spread (maximumf (broadcastInDim S100000 ![] bcast_S_S100000 (constant (F := Ideal) S_ .f32 0xFF800000#32)) M)) (ix2 r c))
        (spreadLog (sumOverCols (Host.exp (subf y (spread (maximumf (broadcastInDim S100000 ![] bcast_S_S100000 (constant (F := Ideal) S_ .f32 0xFF800000#32)) M))))) (ix2 r c))
     = FloatOps.subf (F := Ideal) (rowShift (n := 100000) y (ix2 r c)) (FloatOps.log (F := Ideal) (rowSum (n := 100000) y r))
  have hlog : spreadLog (sumOverCols (Host.exp (subf y (spread (maximumf (broadcastInDim S100000 ![] bcast_S_S100000 (constant (F := Ideal) S_ .f32 0xFF800000#32)) M))))) (ix2 r c)
      = FloatOps.log (F := Ideal) (rowSum (n := 100000) y r) :=
    (spread_log_apply _ r c).trans (congrArg (FloatOps.log (F := Ideal)) hsum)
  rw [hlog, hshift c]

/-- The reference's last step is the row-wise logarithm of the softmax of the rectified array. -/
theorem tail_eq (a : (⟨S100000x40, .f32⟩ : BufTy).Contents (Elt Ideal)) : tail a = rowLogSoftmax (n := 100000) (relu a) :=
  steps_of_rowmax (relu a) (maxOverCols (relu a)) (rowmax_apply (relu a))

end Cert.ReferenceIdeal.Softmax

end
-- ==== Proof.RefChain.lean ====
/-
  The reference's run, and what it computes.

  The reference is a straight line of 101 host operations, so every buffer ends at the fold of the operations' results
  over the launch contents. Cut into its six stretches — the prefix (indices and edge weights), the first product, the
  first aggregation, the rectifier with the second product, the second aggregation, the rectifier with the logarithm of
  the softmax — the fold is the composition of the stretches' folds. Each stretch's result is a function of the few
  values it reads, and it leaves alone the buffers the later stretches still need. Composing: the result is

      logsoftmax (relu (agg₂ (relu (agg₁ (x · W1) + …) · W2) …))

  with the index vectors, the edge weights and the two aggregations the shared functions of the edge array.
-/
import proofs.«116660_j15212774162888_1_alg».proof.Proof.RefOps
import proofs.«116660_j15212774162888_1_alg».proof.Proof.RefProducts
import proofs.«116660_j15212774162888_1_alg».proof.Proof.RefSoftmax
import proofs.«116660_j15212774162888_1_alg».proof.Proof.Spec
import Idealize.ShloMosaic.Lib.StableHlo.Run
import Idealize.ShloMosaic.Lib.Pipeline.Frame

noncomputable section

namespace Cert.ReferenceIdeal.Chain

open Idealize.ShloMosaic Idealize.ShloMosaic.TcCoe Idealize.SL.Sem Idealize.ShloMosaic.StableHlo
open Cert.ReferenceIdeal Cert.ReferenceIdeal.Gen Cert.ReferenceIdeal.ValueP Cert.Spec

/-! ## The six stretches -/

/-- The prefix: the index vectors and the edge weights. -/
abbrev P : List (HloOp τ sig (Elt Ideal)) := (ops (F := Ideal)).take 40
/-- The first product. -/
abbrev Q1 : List (HloOp τ sig (Elt Ideal)) := ((ops (F := Ideal)).drop 40).take 1
/-- The first aggregation. -/
abbrev S1 : List (HloOp τ sig (Elt Ideal)) := ((ops (F := Ideal)).drop 41).take 19
/-- The rectifier and the second product. -/
abbrev R1 : List (HloOp τ sig (Elt Ideal)) := ((ops (F := Ideal)).drop 60).take 4
/-- The second aggregation. -/
abbrev S2 : List (HloOp τ sig (Elt Ideal)) := ((ops (F := Ideal)).drop 64).take 19
/-- The rectifier and the logarithm of the softmax. -/
abbrev T : List (HloOp τ sig (Elt Ideal)) := (ops (F := Ideal)).drop 83

/-- The operations are the six stretches one after the other. -/
theorem ops_split : (ops (F := Ideal)) = P ++ (Q1 ++ (S1 ++ (R1 ++ (S2 ++ T)))) := rfl

/-- So the fold over all of them is the composition of the stretches' folds. -/
theorem after_ops (W : Valuation τ sig (Elt Ideal)) :
    StableHlo.after (ops (F := Ideal)) W
      = StableHlo.after T (StableHlo.after S2 (StableHlo.after R1 (StableHlo.after S1 (StableHlo.after Q1 (StableHlo.after P W))))) := by
  conv_lhs => rw [ops_split]
  simp only [StableHlo.after_append]

/-! ## What each stretch leaves alone -/

set_option maxHeartbeats 8000000 in
theorem P_keeps (W : Valuation τ sig (Elt Ideal)) :
    StableHlo.after P W (Proc.devRef .tc main_arg0) = W (Proc.devRef .tc main_arg0)
      ∧ StableHlo.after P W (Proc.devRef .tc main_arg2) = W (Proc.devRef .tc main_arg2)
      ∧ StableHlo.after P W (Proc.devRef .tc main_arg3) = W (Proc.devRef .tc main_arg3)
      ∧ StableHlo.after P W (Proc.devRef .tc main_arg4) = W (Proc.devRef .tc main_arg4)
      ∧ StableHlo.after P W (Proc.devRef .tc main_arg5) = W (Proc.devRef .tc main_arg5) := by
  refine ⟨?_, ?_, ?_, ?_, ?_⟩ <;> (simp only [P, Q1, S1, R1, S2, T, ops, List.drop_succ_cons, List.drop_zero, List.take_succ_cons, List.take_zero]; after_results_simp)

set_option maxHeartbeats 4000000 in
theorem Q1_keeps (W : Valuation τ sig (Elt Ideal)) :
    StableHlo.after Q1 W (Proc.devRef .tc main_v29) = W (Proc.devRef .tc main_v29)
      ∧ StableHlo.after Q1 W (Proc.devRef .tc main_v3) = W (Proc.devRef .tc main_v3)
      ∧ StableHlo.after Q1 W (Proc.devRef .tc main_v6) = W (Proc.devRef .tc main_v6)
      ∧ StableHlo.after Q1 W (Proc.devRef .tc main_arg3) = W (Proc.devRef .tc main_arg3)
      ∧ StableHlo.after Q1 W (Proc.devRef .tc main_arg4) = W (Proc.devRef .tc main_arg4)
      ∧ StableHlo.after Q1 W (Proc.devRef .tc main_arg5) = W (Proc.devRef .tc main_arg5) := by
  refine ⟨?_, ?_, ?_, ?_, ?_, ?_⟩ <;> (simp only [P, Q1, S1, R1, S2, T, ops, List.drop_succ_cons, List.drop_zero, List.take_succ_cons, List.take_zero]; after_results_simp)

set_option maxHeartbeats 4000000 in
theorem S1_keeps (W : Valuation τ sig (Elt Ideal)) :
    StableHlo.after S1 W (Proc.devRef .tc main_v29) = W (Proc.devRef .tc main_v29)
      ∧ StableHlo.after S1 W (Proc.devRef .tc main_v3) = W (Proc.devRef .tc main_v3)
      ∧ StableHlo.after S1 W (Proc.devRef .tc main_v6) = W (Proc.devRef .tc main_v6)
      ∧ StableHlo.after S1 W (Proc.devRef .tc main_arg4) = W (Proc.devRef .tc main_arg4)
      ∧ StableHlo.after S1 W (Proc.devRef .tc main_arg5) = W (Proc.devRef .tc main_arg5) := by
  refine ⟨?_, ?_, ?_, ?_, ?_⟩ <;> (simp only [P, Q1, S1, R1, S2, T, ops, List.drop_succ_cons, List.drop_zero, List.take_succ_cons, List.take_zero]; after_results_simp)

set_option maxHeartbeats 4000000 in
theorem R1_keeps (W : Valuation τ sig (Elt Ideal)) :
    StableHlo.after R1 W (Proc.devRef .tc main_v29) = W (Proc.devRef .tc main_v29)
      ∧ StableHlo.after R1 W (Proc.devRef .tc main_v3) = W (Proc.devRef .tc main_v3)
      ∧ StableHlo.after R1 W (Proc.devRef .tc main_v6) = W (Proc.devRef .tc main_v6)
      ∧ StableHlo.after R1 W (Proc.devRef .tc main_arg5) = W (Proc.devRef .tc main_arg5) := by
  refine ⟨?_, ?_, ?_, ?_⟩ <;> (simp only [P, Q1, S1, R1, S2, T, ops, List.drop_succ_cons, List.drop_zero, List.take_succ_cons, List.take_zero]; after_results_simp)

/-! ## What the three stretches that are the reference's own compute -/

set_option maxHeartbeats 4000000 in
/-- The first product. -/
theorem Q1_value (W : Valuation τ sig (Elt Ideal)) :
    StableHlo.after Q1 W (Proc.devRef .tc main_v30) = prod1 (W (Proc.devRef .tc main_arg0)) (W (Proc.devRef .tc main_arg2)) := by
  refine Eq.trans ?_ (Products.dot1_eq (W (Proc.devRef .tc main_arg0)) (W (Proc.devRef .tc main_arg2)))
  simp only [P, Q1, S1, R1, S2, T, ops, List.drop_succ_cons, List.drop_zero, List.take_succ_cons, List.take_zero]
  after_results_simp
  repeat (first
    | rw [reshape_result] | rw [unary_result] | rw [binary_result] | rw [ternary_result] | rw [nullary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

set_option maxHeartbeats 4000000 in
/-- The rectifier and the second product. -/
theorem R1_value (W : Valuation τ sig (Elt Ideal)) :
    StableHlo.after R1 W (Proc.devRef .tc main_v48) = prod2 (relu (W (Proc.devRef .tc main_v46))) (W (Proc.devRef .tc main_arg4)) := by
  refine Eq.trans ?_ (Products.dot2_eq (W (Proc.devRef .tc main_v46)) (W (Proc.devRef .tc main_arg4)))
  simp only [P, Q1, S1, R1, S2, T, ops, List.drop_succ_cons, List.drop_zero, List.take_succ_cons, List.take_zero]
  after_results_simp
  repeat (first
    | rw [reshape_result] | rw [unary_result] | rw [binary_result] | rw [ternary_result] | rw [nullary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

/-! The last stretch in four pieces: the rectifier; each row's largest entry; each entry less it; the logarithm of each
    row's sum of exponentials, subtracted. Each piece reads only what the pieces before it wrote, and the second piece's
    result is stated row by row. -/

/-- The rectifier. -/
abbrev Ta : List (HloOp τ sig (Elt Ideal)) := ((ops (F := Ideal)).drop 83).take 3
/-- Each row's largest entry. -/
abbrev Tb1 : List (HloOp τ sig (Elt Ideal)) := ((ops (F := Ideal)).drop 86).take 2
/-- Each entry less (the larger of −∞ and) its row's largest entry. -/
abbrev Tb2 : List (HloOp τ sig (Elt Ideal)) := ((ops (F := Ideal)).drop 88).take 6
/-- The logarithm of each row's sum of exponentials, subtracted. -/
abbrev Tc : List (HloOp τ sig (Elt Ideal)) := (ops (F := Ideal)).drop 94

theorem T_split : T = Ta ++ (Tb1 ++ (Tb2 ++ Tc)) := rfl

set_option maxHeartbeats 4000000 in
theorem Ta_value (W : Valuation τ sig (Elt Ideal)) :
    StableHlo.after Ta W (Proc.devRef .tc main_v65)
      = maximumf (W (Proc.devRef .tc main_v64) : (⟨S100000x40, .f32⟩ : BufTy).Contents (Elt Ideal)) (broadcastInDim S100000x40 ![] bcast_S_S100000x40 (constant (F := Ideal) S_ .f32 0x00000000#32)) := by
  simp only [Ta, Tb1, Tb2, Tc, ops, List.drop_succ_cons, List.drop_zero, List.take_succ_cons, List.take_zero]
  after_results_simp
  repeat (first
    | rw [reshape_result] | rw [unary_result] | rw [binary_result] | rw [ternary_result] | rw [nullary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

set_option maxHeartbeats 4000000 in
theorem Tb1_keeps (W : Valuation τ sig (Elt Ideal)) : StableHlo.after Tb1 W (Proc.devRef .tc main_v65) = W (Proc.devRef .tc main_v65) := by
  simp only [Ta, Tb1, Tb2, Tc, ops, List.drop_succ_cons, List.drop_zero, List.take_succ_cons, List.take_zero]
  after_results_simp

set_option maxHeartbeats 8000000 in
/-- The reduction's result, at row r: the largest entry of row r of the array it reads. -/
theorem Tb1_value (W : Valuation τ sig (Elt Ideal)) (r : Fin 100000) :
    (StableHlo.after Tb1 W (Proc.devRef .tc main_call3_v0) : FVec Ideal S100000 .f32) (ValueIdx.ix1 r)
      = rowMax (n := 100000) (W (Proc.devRef .tc main_v65) : (⟨S100000x40, .f32⟩ : BufTy).Contents (Elt Ideal)) r := by
  simp only [Ta, Tb1, Tb2, Tc, ops, List.drop_succ_cons, List.drop_zero, List.take_succ_cons, List.take_zero]
  after_results_simp
  repeat (first
    | rw [reshape_result] | rw [unary_result] | rw [binary_result] | rw [ternary_result] | rw [nullary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  generalize hF : Host.reduce _ _ _ _ _ = Fv
  have hc : (TRef.of (T := ⟨S100000, .f32⟩) main_call3_v0).toBuf Fv = Fv := eq_of_heq (cast_heq _ _)
  rw [hc, ← hF]
  exact Softmax.rowmax_gen _ _ _ Softmax.hred _ rfl r

set_option maxHeartbeats 8000000 in
theorem Tb2_value (W : Valuation τ sig (Elt Ideal)) :
    StableHlo.after Tb2 W (Proc.devRef .tc main_call3_v5)
      = subf (W (Proc.devRef .tc main_v65) : (⟨S100000x40, .f32⟩ : BufTy).Contents (Elt Ideal))
          (Softmax.spread (maximumf (broadcastInDim S100000 ![] bcast_S_S100000 (constant (F := Ideal) S_ .f32 0xFF800000#32)) (W (Proc.devRef .tc main_call3_v0) : FVec Ideal S100000 .f32))) := by
  simp only [Ta, Tb1, Tb2, Tc, ops, List.drop_succ_cons, List.drop_zero, List.take_succ_cons, List.take_zero]
  after_results_simp
  repeat (first
    | rw [reshape_result] | rw [unary_result] | rw [binary_result] | rw [ternary_result] | rw [nullary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

set_option maxHeartbeats 8000000 in
theorem Tc_value (W : Valuation τ sig (Elt Ideal)) :
    StableHlo.after Tc W (Proc.devRef .tc main_v66)
      = subf (W (Proc.devRef .tc main_call3_v5) : (⟨S100000x40, .f32⟩ : BufTy).Contents (Elt Ideal)) (Softmax.spreadLog (Softmax.sumOverCols (Host.exp (W (Proc.devRef .tc main_call3_v5) : (⟨S100000x40, .f32⟩ : BufTy).Contents (Elt Ideal))))) := by
  simp only [Ta, Tb1, Tb2, Tc, ops, List.drop_succ_cons, List.drop_zero, List.take_succ_cons, List.take_zero]
  after_results_simp
  repeat (first
    | rw [reshape_result] | rw [unary_result] | rw [binary_result] | rw [ternary_result] | rw [nullary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

/-- The rectifier and the logarithm of the softmax. -/
theorem T_value (W : Valuation τ sig (Elt Ideal)) :
    StableHlo.after T W (Proc.devRef .tc main_v66) = rowLogSoftmax (n := 100000) (relu (W (Proc.devRef .tc main_v64))) := by
  rw [T_split, StableHlo.after_append, StableHlo.after_append, StableHlo.after_append, Tc_value, Tb2_value, Tb1_keeps, Ta_value]
  exact Softmax.steps_of_rowmax _ _ (fun r => by
    have h := Tb1_value (StableHlo.after Ta W) r
    rw [Ta_value] at h
    exact h)

/-! ## The composition -/

section Composed

variable (Src Dst : (⟨S2x1600000, .i32⟩ : BufTy).Contents (Elt Ideal) → (⟨S1700000, .i32⟩ : BufTy).Contents (Elt Ideal))
    (Nrm : (⟨S2x1600000, .i32⟩ : BufTy).Contents (Elt Ideal) → (⟨S1700000, .f32⟩ : BufTy).Contents (Elt Ideal))
    (A1 : (⟨S1700000, .f32⟩ : BufTy).Contents (Elt Ideal) → (⟨S1700000, .i32⟩ : BufTy).Contents (Elt Ideal) → (⟨S1700000, .i32⟩ : BufTy).Contents (Elt Ideal) → (⟨S100000x64, .f32⟩ : BufTy).Contents (Elt Ideal) → (⟨S64, .f32⟩ : BufTy).Contents (Elt Ideal) → (⟨S100000x64, .f32⟩ : BufTy).Contents (Elt Ideal))
    (A2 : (⟨S1700000, .f32⟩ : BufTy).Contents (Elt Ideal) → (⟨S1700000, .i32⟩ : BufTy).Contents (Elt Ideal) → (⟨S1700000, .i32⟩ : BufTy).Contents (Elt Ideal) → (⟨S100000x40, .f32⟩ : BufTy).Contents (Elt Ideal) → (⟨S40, .f32⟩ : BufTy).Contents (Elt Ideal) → (⟨S100000x40, .f32⟩ : BufTy).Contents (Elt Ideal))
    (hSrc : ∀ W : Valuation τ sig (Elt Ideal), StableHlo.after ((ops (F := Ideal)).take 40) W (Proc.devRef .tc main_v3) = Src (W (Proc.devRef .tc main_arg1)))
    (hDst : ∀ W : Valuation τ sig (Elt Ideal), StableHlo.after ((ops (F := Ideal)).take 40) W (Proc.devRef .tc main_v6) = Dst (W (Proc.devRef .tc main_arg1)))
    (hNrm : ∀ W : Valuation τ sig (Elt Ideal), StableHlo.after ((ops (F := Ideal)).take 40) W (Proc.devRef .tc main_v29) = Nrm (W (Proc.devRef .tc main_arg1)))
    (hA1 : ∀ W : Valuation τ sig (Elt Ideal), StableHlo.after (((ops (F := Ideal)).drop 41).take 19) W (Proc.devRef .tc main_v46)
      = A1 (W (Proc.devRef .tc main_v29)) (W (Proc.devRef .tc main_v3)) (W (Proc.devRef .tc main_v6)) (W (Proc.devRef .tc main_v30)) (W (Proc.devRef .tc main_arg3)))
    (hA2 : ∀ W : Valuation τ sig (Elt Ideal), StableHlo.after (((ops (F := Ideal)).drop 64).take 19) W (Proc.devRef .tc main_v64)
      = A2 (W (Proc.devRef .tc main_v29)) (W (Proc.devRef .tc main_v3)) (W (Proc.devRef .tc main_v6)) (W (Proc.devRef .tc main_v48)) (W (Proc.devRef .tc main_arg5)))

include hSrc hDst hNrm hA1 hA2 in
/-- From any launch contents the fold over all the operations leaves, in the result buffer, the network's value at the
    launch arguments. -/
theorem value (W0 : Valuation τ sig (Elt Ideal)) :
    StableHlo.after (ops (F := Ideal)) W0 (Proc.devRef .tc main_v66) = network Src Dst Nrm A1 A2 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) := by
  rw [after_ops, T_value]
  have e64 := hA2 (StableHlo.after R1 (StableHlo.after S1 (StableHlo.after Q1 (StableHlo.after P W0))))
  have e48 := R1_value (StableHlo.after S1 (StableHlo.after Q1 (StableHlo.after P W0)))
  obtain ⟨r29, r3, r6, r5a⟩ := R1_keeps (StableHlo.after S1 (StableHlo.after Q1 (StableHlo.after P W0)))
  have e46 := hA1 (StableHlo.after Q1 (StableHlo.after P W0))
  obtain ⟨s29, s3, s6, s4a, s5a⟩ := S1_keeps (StableHlo.after Q1 (StableHlo.after P W0))
  have e30 := Q1_value (StableHlo.after P W0)
  obtain ⟨q29, q3, q6, q3a, q4a, q5a⟩ := Q1_keeps (StableHlo.after P W0)
  have n29 := hNrm W0
  have n3 := hSrc W0
  have n6 := hDst W0
  obtain ⟨p0, p2, p3, p4, p5⟩ := P_keeps W0
  show rowLogSoftmax (n := 100000) (relu ((StableHlo.after S2 (StableHlo.after R1 (StableHlo.after S1 (StableHlo.after Q1 (StableHlo.after P W0))))) (Proc.devRef .tc main_v64))) = _
  rw [show (StableHlo.after S2 (StableHlo.after R1 (StableHlo.after S1 (StableHlo.after Q1 (StableHlo.after P W0))))) (Proc.devRef .tc main_v64) = _ from e64, e48, r29, r3, r6, r5a, e46, s29, s3, s6, s4a, s5a, e30, q29, q3, q6, q3a, q4a, q5a, n29, n3, n6, p0, p2, p3, p4, p5]
  rfl

end Composed

/-! ## The arguments, and the run -/

set_option maxRecDepth 8192 in
set_option maxHeartbeats 40400000 in
/-- No operation writes an argument. -/
theorem args_kept (W0 : Valuation τ sig (Elt Ideal)) :
    StableHlo.after (ops (F := Ideal)) W0 (Proc.devRef .tc main_arg0) = W0 (Proc.devRef .tc main_arg0)
      ∧ StableHlo.after (ops (F := Ideal)) W0 (Proc.devRef .tc main_arg1) = W0 (Proc.devRef .tc main_arg1)
      ∧ StableHlo.after (ops (F := Ideal)) W0 (Proc.devRef .tc main_arg2) = W0 (Proc.devRef .tc main_arg2)
      ∧ StableHlo.after (ops (F := Ideal)) W0 (Proc.devRef .tc main_arg3) = W0 (Proc.devRef .tc main_arg3)
      ∧ StableHlo.after (ops (F := Ideal)) W0 (Proc.devRef .tc main_arg4) = W0 (Proc.devRef .tc main_arg4)
      ∧ StableHlo.after (ops (F := Ideal)) W0 (Proc.devRef .tc main_arg5) = W0 (Proc.devRef .tc main_arg5) := by
  refine ⟨?_, ?_, ?_, ?_, ?_, ?_⟩ <;> after_results_simp

section Run

variable (Src Dst : (⟨S2x1600000, .i32⟩ : BufTy).Contents (Elt Ideal) → (⟨S1700000, .i32⟩ : BufTy).Contents (Elt Ideal))
    (Nrm : (⟨S2x1600000, .i32⟩ : BufTy).Contents (Elt Ideal) → (⟨S1700000, .f32⟩ : BufTy).Contents (Elt Ideal))
    (A1 : (⟨S1700000, .f32⟩ : BufTy).Contents (Elt Ideal) → (⟨S1700000, .i32⟩ : BufTy).Contents (Elt Ideal) → (⟨S1700000, .i32⟩ : BufTy).Contents (Elt Ideal) → (⟨S100000x64, .f32⟩ : BufTy).Contents (Elt Ideal) → (⟨S64, .f32⟩ : BufTy).Contents (Elt Ideal) → (⟨S100000x64, .f32⟩ : BufTy).Contents (Elt Ideal))
    (A2 : (⟨S1700000, .f32⟩ : BufTy).Contents (Elt Ideal) → (⟨S1700000, .i32⟩ : BufTy).Contents (Elt Ideal) → (⟨S1700000, .i32⟩ : BufTy).Contents (Elt Ideal) → (⟨S100000x40, .f32⟩ : BufTy).Contents (Elt Ideal) → (⟨S40, .f32⟩ : BufTy).Contents (Elt Ideal) → (⟨S100000x40, .f32⟩ : BufTy).Contents (Elt Ideal))
    (hSrc : ∀ W : Valuation τ sig (Elt Ideal), StableHlo.after ((ops (F := Ideal)).take 40) W (Proc.devRef .tc main_v3) = Src (W (Proc.devRef .tc main_arg1)))
    (hDst : ∀ W : Valuation τ sig (Elt Ideal), StableHlo.after ((ops (F := Ideal)).take 40) W (Proc.devRef .tc main_v6) = Dst (W (Proc.devRef .tc main_arg1)))
    (hNrm : ∀ W : Valuation τ sig (Elt Ideal), StableHlo.after ((ops (F := Ideal)).take 40) W (Proc.devRef .tc main_v29) = Nrm (W (Proc.devRef .tc main_arg1)))
    (hA1 : ∀ W : Valuation τ sig (Elt Ideal), StableHlo.after (((ops (F := Ideal)).drop 41).take 19) W (Proc.devRef .tc main_v46)
      = A1 (W (Proc.devRef .tc main_v29)) (W (Proc.devRef .tc main_v3)) (W (Proc.devRef .tc main_v6)) (W (Proc.devRef .tc main_v30)) (W (Proc.devRef .tc main_arg3)))
    (hA2 : ∀ W : Valuation τ sig (Elt Ideal), StableHlo.after (((ops (F := Ideal)).drop 64).take 19) W (Proc.devRef .tc main_v64)
      = A2 (W (Proc.devRef .tc main_v29)) (W (Proc.devRef .tc main_v3)) (W (Proc.devRef .tc main_v6)) (W (Proc.devRef .tc main_v48)) (W (Proc.devRef .tc main_arg5)))

include hSrc hDst hNrm hA1 hA2 in
/-- Every weakly fair execution of the reference terminates with its result at the network's value at the launch
    arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
        = network Src Dst Nrm A1 A2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have k := args_kept (launchContents m c)
      ⟨(h c main_v66).trans (value Src Dst Nrm A1 A2 hSrc hDst hNrm hA1 hA2 (launchContents m c)),
       (h c main_arg0).trans k.1, (h c main_arg1).trans k.2.1, (h c main_arg2).trans k.2.2.1,
       (h c main_arg3).trans k.2.2.2.1, (h c main_arg4).trans k.2.2.2.2.1, (h c main_arg5).trans k.2.2.2.2.2⟩)
    (run_seq scopedRefs_eq scopedSems_eq defs main (fun _ => ops) main_eq (fun _ => ops_sub) m ρ)

end Run

end Cert.ReferenceIdeal.Chain

end
-- ==== Proof.lean ====
/-
  A two-layer graph convolution with a log-softmax head: the kernel's program and its jax reference compute one function.

  Both programs first build, from the edge array alone, the source and target index vectors and the edge weights; then

      out = logsoftmax (relu (agg₂ (relu (agg₁ (x · W1) + b1) · W2) + b2)),

  where each aggregation gathers the rows of a node array at the source indices, scales them by the edge weights and adds
  them up at the target indices. The reference does every step with host operations. The kernel's program does the index
  vectors, the weights and the two aggregations with the SAME host operations, and three steps in kernel regions over
  grids of 50 row blocks of 2000 rows: the product x · W1; the rectifier fused with the product by W2; the rectifier
  fused with the log-softmax.

  On the extended reals the three steps agree with the reference's. An entry of a matrix product is the sum over the
  shared axis of the products of the factors' entries — for the kernel's contraction into a zero accumulator as for the
  host's, the changes of float format in front of the kernel's being the identity — and it depends only on its own row of
  the left factor, so the row blocks the grid points write are the blocks of the whole product and together they cover
  it. The rectifier acts entry by entry. The log-softmax of a row depends on that row only; both programs take the
  row's largest entry as a fold of `max` from −∞ (jax once more takes the larger of the result and −∞, which changes
  nothing), subtract it, and subtract the logarithm of the row's sum of exponentials, a sum from zero. Only
  commutativity and associativity of + and max, 0 + a = a and max (−∞) a = a are used: nothing needs the inputs to be
  finite, and the precondition is never opened.

  The shared host operations are never opened either: each stretch of them is one function, the same in both programs,
  of the few values it reads. So both results are that composition of the same functions at arguments that agree.

  The kernel programs' frames are the generated ones. The reference is a straight line of host operations; its run
  (every buffer ends at the fold of the operations' results over the launch contents) gives its frame, and, read
  stretch by stretch, its value. The idealization rewrote nothing, so what it preserves is trivially so.
-/
import proofs.«116660_j15212774162888_1_alg».proof.Defs
import proofs.«116660_j15212774162888_1_alg».proof.Proof.Gen.Kernel
import proofs.«116660_j15212774162888_1_alg».proof.Proof.Gen.Kernel.Frame
import proofs.«116660_j15212774162888_1_alg».proof.Proof.Gen.KernelIdeal
import proofs.«116660_j15212774162888_1_alg».proof.Proof.Gen.KernelIdeal.Frame
import proofs.«116660_j15212774162888_1_alg».proof.Proof.Gen.ReferenceIdeal
import proofs.«116660_j15212774162888_1_alg».proof.Proof.Gen.Pre_finite_inputs
import proofs.«116660_j15212774162888_1_alg».proof.Proof.Spec
import proofs.«116660_j15212774162888_1_alg».proof.Proof.Stretches
import proofs.«116660_j15212774162888_1_alg».proof.Proof.KernelRun
import proofs.«116660_j15212774162888_1_alg».proof.Proof.KernelChain
import proofs.«116660_j15212774162888_1_alg».proof.Proof.RefChain
import Idealize.ShloMosaic.Adequacy
import Idealize.ShloMosaic.Init

noncomputable section

namespace Cert.Proof

open Idealize.ShloMosaic Idealize.ShloMosaic.TcCoe Idealize.SL.Sem

/-- The kernel's program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with what it says of the result dropped. -/
theorem frame_referenceIdeal : Cert.frame_ReferenceIdeal := fun m ρ _ => by
  obtain ⟨Src, kSrc, rSrc⟩ := Cert.Stretches.src_joint (F := Ideal)
  obtain ⟨Dst, kDst, rDst⟩ := Cert.Stretches.dst_joint (F := Ideal)
  obtain ⟨Nrm, kNrm, rNrm⟩ := Cert.Stretches.nrm_joint (F := Ideal)
  obtain ⟨A1, kA1, rA1⟩ := Cert.Stretches.agg1_joint (F := Ideal)
  obtain ⟨A2, kA2, rA2⟩ := Cert.Stretches.agg2_joint (F := Ideal)
  exact (θ_run Cert.ReferenceIdeal.defs _ _).mono (fun _ h c => (h c).2)
    (Cert.ReferenceIdeal.Chain.run Src Dst Nrm A1 A2 rSrc rDst rNrm rA1 rA2 m ρ)

/-- The idealization rewrote no operation. -/
theorem preserves : Cert.preserves_Kernel_KernelIdeal := trivial

/-- From memories that agree on the arguments both idealized programs run and end with the network's value at those
    arguments in their result arrays: the kernel's program by its run and the walk back through its regions and host
    stretches, the reference by its run read stretch by stretch; the shared functions are the same on both sides. -/
theorem algebraic : Cert.algebraic_KernelIdeal_ReferenceIdeal := by
  intro m ρ m' ρ' _ hagree
  obtain ⟨Src, kSrc, rSrc⟩ := Cert.Stretches.src_joint (F := Ideal)
  obtain ⟨Dst, kDst, rDst⟩ := Cert.Stretches.dst_joint (F := Ideal)
  obtain ⟨Nrm, kNrm, rNrm⟩ := Cert.Stretches.nrm_joint (F := Ideal)
  obtain ⟨A1, kA1, rA1⟩ := Cert.Stretches.agg1_joint (F := Ideal)
  obtain ⟨A2, kA2, rA2⟩ := Cert.Stretches.agg2_joint (F := Ideal)
  refine ⟨fun c => Cert.Spec.network Src Dst Nrm A1 A2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.value Src Dst Nrm A1 A2 kSrc kDst kNrm kA1 kA2 m ρ c), (h c).2⟩)
      (Cert.KernelIdeal.ResultRun.run m ρ)
  · refine (θ_run Cert.ReferenceIdeal.defs _ _).mono (fun _ h c => ⟨(h c).1.trans ?_, (h c).2⟩)
      (Cert.ReferenceIdeal.Chain.run Src Dst Nrm A1 A2 rSrc rDst rNrm rA1 rA2 m' ρ')
    obtain ⟨a0, a1, a2, a3, a4, a5⟩ := hagree c
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
